-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S50000x5000 : Shape := ⟨2, ![50000, 5000]⟩
abbrev S5000 : Shape := ⟨1, ![5000]⟩
abbrev S_ : Shape := ⟨0, ![]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S50000x5000 : S_.BroadcastsInDim S50000x5000 (![] : Fin 0 → Fin S50000x5000.rank)
  reducesTo_S50000x5000_S_d0_1 : S50000x5000.ReducesTo [0, 1] S_

variable [Facts]

def fn {F : FTy → Type} [FloatOps F] (main_arg0 : FVec F S50000x16 .f32) (main_arg1 : FVec F S50000x16 .f32) (main_arg2 : FVec F S50000x5000 .f32) (main_arg3 : IVec S5000 1) : IVec S_ 1 :=
  let main_v0 : FVec F S50000x16 .f32 := Host.absf main_arg0
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S50000x16 .f32 := Host.absf main_arg1
  let main_cst_0 : FVec F S_ .f32 := constant S_ .f32 0x7F800000#32
  let main_v5 : FVec F S50000x16 .f32 := broadcastInDim S50000x16 ![] bcast_S_S50000x16 main_cst_0
  let main_v6 : IVec S50000x16 1 := cmpf .olt main_v4 main_v5
  let main_c_1 : IVec S_ 1 := constantI S_ 1 1#1
  let main_v7 : IVec S_ 1 := (fun x v => Host.reduce IntOp.andi x v reducesTo_S50000x16_S_d0_1 h_S_) main_v6 main_c_1
  let main_v8 : IVec S_ 1 := andi main_v3 main_v7
  let main_v9 : FVec F S50000x5000 .f32 := Host.absf main_arg2
  let main_cst_2 : FVec F S_ .f32 := constant S_ .f32 0x7F800000#32
  let main_v10 : FVec F S50000x5000 .f32 := broadcastInDim S50000x5000 ![] bcast_S_S50000x5000 main_cst_2
  let main_v11 : IVec S50000x5000 1 := cmpf .olt main_v9 main_v10
  let main_c_3 : IVec S_ 1 := constantI S_ 1 1#1
  let main_v12 : IVec S_ 1 := (fun x v => Host.reduce IntOp.andi x v reducesTo_S50000x5000_S_d0_1 h_S_) main_v11 main_c_3
  let main_v13 : IVec S_ 1 := andi main_v8 main_v12
  main_v13
-- ==== Kernel.lean ====
abbrev S50000x16 : Shape := ⟨2, ![50000, 16]⟩
abbrev S50000x5000 : Shape := ⟨2, ![50000, 5000]⟩
abbrev S5000 : Shape := ⟨1, ![5000]⟩
abbrev S16x5000 : Shape := ⟨2, ![16, 5000]⟩
abbrev S5000x16 : Shape := ⟨2, ![5000, 16]⟩
abbrev S5000x512 : Shape := ⟨2, ![5000, 512]⟩
abbrev S16x512 : Shape := ⟨2, ![16, 512]⟩
abbrev S33x512 : Shape := ⟨2, ![33, 512]⟩
abbrev S5000x1 : Shape := ⟨2, ![5000, 1]⟩
abbrev S5000x33 : Shape := ⟨2, ![5000, 33]⟩
abbrev S1x512 : Shape := ⟨2, ![1, 512]⟩
abbrev S_ : Shape := ⟨0, ![]⟩
abbrev S1x5000 : Shape := ⟨2, ![1, 5000]⟩

abbrev nBuf : Space → Nat
  | .hbm => 16
  | .vmem => 9
  | .smem => 0
  | _ => 0

abbrev bufTy : (tb : Table) → Fin (tcTables nBuf tb) → BufTy
  | .hbm, ⟨0, _⟩ => ⟨S50000x16, .f32⟩
  | .hbm, ⟨1, _⟩ => ⟨S50000x16, .f32⟩
  | .hbm, ⟨2, _⟩ => ⟨S50000x5000, .f32⟩
  | .hbm, ⟨3, _⟩ => ⟨S5000, .i1⟩
  | .hbm, ⟨4, _⟩ => ⟨S16x5000, .f32⟩
  | .hbm, ⟨5, _⟩ => ⟨S5000, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1x5000, .f32⟩
  | .hbm, ⟨11, _⟩ => ⟨S16x5000, .f32⟩
  | .hbm, ⟨12, _⟩ => ⟨S16x5000, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S5000x16, .f32⟩
  | .local _ .vmem, ⟨1, _⟩ => ⟨S5000x16, .f32⟩
  | .local _ .vmem, ⟨2, _⟩ => ⟨S5000x16, .f32⟩
  | .local _ .vmem, ⟨3, _⟩ => ⟨S5000x16, .f32⟩
  | .local _ .vmem, ⟨4, _⟩ => ⟨S5000x512, .f32⟩
  | .local _ .vmem, ⟨5, _⟩ => ⟨S5000x512, .f32⟩
  | .local _ .vmem, ⟨6, _⟩ => ⟨S16x512, .f32⟩
  | .local _ .vmem, ⟨7, _⟩ => ⟨S16x512, .f32⟩
  | .local _ .vmem, ⟨8, _⟩ => ⟨S33x512, .f32⟩
  | _, _ => ⟨S50000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![10, 10], ![false, false]⟩

def k0_cond2 (i : grid0.Coords) : BitVec 1 :=
  let arg1 : BitVec 32 := BitVec.ofNat 32 (i 1).val
  let c9_i32 : BitVec 32 := 9#32
  let v38 : BitVec 1 := Scalar.cmpi .eq arg1 c9_i32
  let v39 : BitVec 32 := Scalar.extui v38
  let c0_i32_17 : BitVec 32 := 0#32
  let v40 : BitVec 1 := Scalar.cmpi .ne v39 c0_i32_17
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S5000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S33x512_S33x512_0_0 : ∀ a, (![0, 0] : Fin 2 → Nat) a + S33x512.size a ≤ S33x512.size a
  h_S33x512 : 0 < S33x512.numel
  shapeCasts_S33x512_S33x512 : S33x512.ShapeCasts S33x512
  inb_S5000x16_S5000x16_0_0 : ∀ a, (![0, 0] : Fin 2 → Nat) a + S5000x16.size a ≤ S5000x16.size a
  h_S5000x16 : 0 < S5000x16.numel
  reduces_S5000x16_S5000 : S5000x16.Reduces [1] S5000
  shapeCasts_S5000_S5000x1 : S5000.ShapeCasts S5000x1
  broadcasts_S5000x1_S5000x16 : S5000x1.Broadcasts S5000x16
  concatenates_S5000x16_S5000x16_S5000x1_S5000x33_d1 : Shape.Concatenates [S5000x16, S5000x16, S5000x1] S5000x33 1
  bitsLt_bf16_f32 : FTy.bits .bf16 < FTy.bits .f32
  inb_S5000x512_S5000x512_0_0 : ∀ a, (![0, 0] : Fin 2 → Nat) a + S5000x512.size a ≤ S5000x512.size a
  h_S5000x512 : 0 < S5000x512.numel
  inb_S33x512_S1x512_32_0 : ∀ a, (![32, 0] : Fin 2 → Nat) a + S1x512.size a ≤ S33x512.size a
  h_S1x512 : 0 < S1x512.numel
  inb_S33x512_S16x512_0_0 : ∀ a, (![0, 0] : Fin 2 → Nat) a + S16x512.size a ≤ S33x512.size a
  h_S16x512 : 0 < S16x512.numel
  broadcasts_S1x512_S16x512 : S1x512.Broadcasts S16x512
  inb_S33x512_S16x512_16_0 : ∀ a, (![16, 0] : Fin 2 → Nat) a + S16x512.size a ≤ S33x512.size a
  inb_S16x512_S16x512_0_0 : ∀ a, (![0, 0] : Fin 2 → Nat) a + S16x512.size a ≤ S16x512.size a
  reducesTo_S5000_S_d0 : S5000.ReducesTo [0] S_
  h_S_ : 0 < S_.numel
  bcast_S5000_S1x5000_1 : S5000.BroadcastsInDim S1x5000 (![1] : Fin 1 → Fin S1x5000.rank)
  bcast_S1x5000_S16x5000_0_1 : S1x5000.BroadcastsInDim S16x5000 (![0, 1] : Fin 2 → Fin S16x5000.rank)
  reducesTo_S16x5000_S_d0_1 : S16x5000.ReducesTo [0, 1] S_
  dot_S5000x33_S5000x512_S33x512_0_0_1_1_n_n_wf : DotDims.WF S5000x33 S5000x512 S33x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S50000x16.size a
  hwx0_0 : ∀ i : grid0.Coords, EltTy.bits .f32 = 32 ∨ (Rect.block (s := S50000x16) S5000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x16.size a ≤ S50000x16.size a
  hwx0_1 : ∀ i : grid0.Coords, EltTy.bits .f32 = 32 ∨ (Rect.block (s := S50000x16) S5000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S5000x512.size a < S50000x5000.size a
  hwx0_2 : ∀ i : grid0.Coords, EltTy.bits .f32 = 32 ∨ (Rect.unit (s := S50000x5000) (fun a => cc0_transform_2 i a * S5000x512.size a) (fun a => (Pipeline.Clip.of (cc0_transform_2 i a) (S5000x512.size a) (S50000x5000.size a)).extent (S5000x512.size a)) fun a => Pipeline.Clip.inb (Pipeline.Clip.ok_of (hstart0_2 i a))).WholeWords (EltTy.packing .f32)
  hwxs0_2 : ∀ i : grid0.Coords, EltTy.bits .f32 = 32 ∨ (Rect.unit (s := S5000x512) (fun _ => 0) (fun a => (Pipeline.Clip.of (cc0_transform_2 i a) (S5000x512.size a) (S50000x5000.size a)).extent (S5000x512.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S16x512.size a < S16x5000.size a
  hwx0_3 : ∀ i : grid0.Coords, EltTy.bits .f32 = 32 ∨ (Rect.unit (s := S16x5000) (fun a => cc0_transform_3 i a * S16x512.size a) (fun a => (Pipeline.Clip.of (cc0_transform_3 i a) (S16x512.size a) (S16x5000.size a)).extent (S16x512.size a)) fun a => Pipeline.Clip.inb (Pipeline.Clip.ok_of (hstart0_3 i a))).WholeWords (EltTy.packing .f32)
  hwxs0_3 : ∀ i : grid0.Coords, EltTy.bits .f32 = 32 ∨ (Rect.unit (s := S16x512) (fun _ => 0) (fun a => (Pipeline.Clip.of (cc0_transform_3 i a) (S16x512.size a) (S16x5000.size a)).extent (S16x512.size a)) fun a => (Nat.zero_add _).trans_le (Pipeline.Clip.extent_le (Pipeline.Clip.ok_of (hstart0_3 i a)))).WholeWords (EltTy.packing .f32)

variable [Facts₀]

def dot_S5000x33_S5000x512_S33x512_0_0_1_1_n_n : DotDims S5000x33 S5000x512 S33x512 where
  lhsContracting := [0]
  rhsContracting := [0]
  lhsNonContracting := [1]
  rhsNonContracting := [1]
  lhsBatch := []
  rhsBatch := []
  wf := dot_S5000x33_S5000x512_S33x512_0_0_1_1_n_n_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpecClip (Memref.whole main_arg2) S5000x512.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v0) S16x512.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S50000x16 : Shape := ⟨2, ![50000, 16]⟩
abbrev S50000x5000 : Shape := ⟨2, ![50000, 5000]⟩
abbrev S5000 : Shape := ⟨1, ![5000]⟩
abbrev S_ : Shape := ⟨0, ![]⟩
abbrev S50000 : Shape := ⟨1, ![50000]⟩
abbrev S50000x1 : Shape := ⟨2, ![50000, 1]⟩
abbrev S5000x16 : Shape := ⟨2, ![5000, 16]⟩
abbrev S5000x1 : Shape := ⟨2, ![5000, 1]⟩

abbrev nBuf : Space → Nat
  | .hbm => 70
  | .vmem => 0
  | .smem => 0
  | _ => 0

abbrev bufTy : (tb : Table) → Fin (tcTables nBuf tb) → BufTy
  | .hbm, ⟨0, _⟩ => ⟨S50000x16, .f32⟩
  | .hbm, ⟨1, _⟩ => ⟨S50000x16, .f32⟩
  | .hbm, ⟨2, _⟩ => ⟨S50000x5000, .f32⟩
  | .hbm, ⟨3, _⟩ => ⟨S5000, .i1⟩
  | .hbm, ⟨4, _⟩ => ⟨S_, .f32⟩
  | .hbm, ⟨5, _⟩ => ⟨S50000, .f32⟩
  | .hbm, ⟨6, _⟩ => ⟨S_, .f32⟩
  | .hbm, ⟨7, _⟩ => ⟨S50000, .f32⟩
  | .hbm, ⟨8, _⟩ => ⟨S50000, .f32⟩
  | .hbm, ⟨9, _⟩ => ⟨S50000x1, .f32⟩
  | .hbm, ⟨10, _⟩ => ⟨S50000x16, .f32⟩
  | .hbm, ⟨11, _⟩ => ⟨S50000x16, .f32⟩
  | .hbm, ⟨12, _⟩ => ⟨S50000x16, .f32⟩
  | .hbm, ⟨13, _⟩ => ⟨S_, .f32⟩
  | .hbm, ⟨14, _⟩ => ⟨S50000, .f32⟩
  | .hbm, ⟨15, _⟩ => ⟨S50000x1, .f32⟩
  | .hbm, ⟨16, _⟩ => ⟨S50000x16, .f32⟩
  | .hbm, ⟨17, _⟩ => ⟨S50000x16, .f32⟩
  | .hbm, ⟨18, _⟩ => ⟨S_, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S50000x16, .f32⟩
  | .hbm, ⟨25, _⟩ => ⟨S50000x16, .f32⟩
  | .hbm, ⟨26, _⟩ => ⟨S50000x16, .f32⟩
  | .hbm, ⟨27, _⟩ => ⟨S_, .f32⟩
  | .hbm, ⟨28, _⟩ => ⟨S50000, .f32⟩
  | .hbm, ⟨29, _⟩ => ⟨S50000x1, .f32⟩
  | .hbm, ⟨30, _⟩ => ⟨S50000x16, .f32⟩
  | .hbm, ⟨31, _⟩ => ⟨S50000x16, .f32⟩
  | .hbm, ⟨32, _⟩ => ⟨S_, .f32⟩
  | .hbm, ⟨33, _⟩ => ⟨S5000, .f32⟩
  | .hbm, ⟨34, _⟩ => ⟨S5000x16, .f32⟩
  | .hbm, ⟨35, _⟩ => ⟨S5000x1, .f32⟩
  | .hbm, ⟨36, _⟩ => ⟨S5000x16, .f32⟩
  | .hbm, ⟨37, _⟩ => ⟨S5000x16, .f32⟩
  | .hbm, ⟨38, _⟩ => ⟨S_, .f32⟩
  | .hbm, ⟨39, _⟩ => ⟨S5000x16, .f32⟩
  | .hbm, ⟨40, _⟩ => ⟨S5000x16, .f32⟩
  | .hbm, ⟨41, _⟩ => ⟨S_, .f32⟩
  | .hbm, ⟨42, _⟩ => ⟨S5000x16, .f32⟩
  | .hbm, ⟨43, _⟩ => ⟨S5000x16, .f32⟩
  | .hbm, ⟨44, _⟩ => ⟨S5000x16, .f32⟩
  | .hbm, ⟨45, _⟩ => ⟨S5000x16, .f32⟩
  | .hbm, ⟨46, _⟩ => ⟨S5000x1, .f32⟩
  | .hbm, ⟨47, _⟩ => ⟨S5000x16, .f32⟩
  | .hbm, ⟨48, _⟩ => ⟨S5000x16, .f32⟩
  | .hbm, ⟨49, _⟩ => ⟨S_, .f32⟩
  | .hbm, ⟨50, _⟩ => ⟨S5000x16, .f32⟩
  | .hbm, ⟨51, _⟩ => ⟨S5000x16, .f32⟩
  | .hbm, ⟨52, _⟩ => ⟨S_, .f32⟩
  | .hbm, ⟨53, _⟩ => ⟨S5000x16, .f32⟩
  | .hbm, ⟨54, _⟩ => ⟨S5000x16, .f32⟩
  | .hbm, ⟨55, _⟩ => ⟨S5000x16, .f32⟩
  | .hbm, ⟨56, _⟩ => ⟨S5000x16, .f32⟩
  | .hbm, ⟨57, _⟩ => ⟨S5000x16, .f32⟩
  | .hbm, ⟨58, _⟩ => ⟨S5000x16, .f32⟩
  | .hbm, ⟨59, _⟩ => ⟨S5000, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S5000x1, .f32⟩
  | .hbm, ⟨65, _⟩ => ⟨S5000x16, .f32⟩
  | .hbm, ⟨66, _⟩ => ⟨S5000x16, .f32⟩
  | .hbm, ⟨67, _⟩ => ⟨S_, .f32⟩
  | .hbm, ⟨68, _⟩ => ⟨S_, .f32⟩
  | .hbm, ⟨69, _⟩ => ⟨S_, .f32⟩
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]

class Facts₀ : Prop where
  reducesTo_S50000x16_S50000_d1 : S50000x16.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  reducesTo_S50000x5000_S5000_d0 : S50000x5000.ReducesTo [0] S5000
  bcast_S5000_S5000x1_0 : S5000.BroadcastsInDim S5000x1 (![0] : Fin 1 → Fin S5000x1.rank)
  bcast_S5000x1_S5000x16_0_1 : S5000x1.BroadcastsInDim S5000x16 (![0, 1] : Fin 2 → Fin S5000x16.rank)
  bcast_S_S5000x16 : S_.BroadcastsInDim S5000x16 (![] : Fin 0 → Fin S5000x16.rank)
  reducesTo_S5000_S_d0 : S5000.ReducesTo [0] S_
  reducesTo_S5000x16_S_d0_1 : S5000x16.ReducesTo [0, 1] S_
  dot_S50000x5000_S50000x16_S5000x16_0_0_1_1_n_n_wf : DotDims.WF S50000x5000 S50000x16 S5000x16 [0] [0] [1] [1] [] []

variable [Facts₀]

def dot_S50000x5000_S50000x16_S5000x16_0_0_1_1_n_n : DotDims S50000x5000 S50000x16 S5000x16 where
  lhsContracting := [0]
  rhsContracting := [0]
  lhsNonContracting := [1]
  rhsNonContracting := [1]
  lhsBatch := []
  rhsBatch := []
  wf := dot_S50000x5000_S50000x16_S5000x16_0_0_1_1_n_n_wf

class Facts : Prop extends Facts₀ where

variable [Facts]
-- ==== Proof.LibWholeStore.lean ====
/-
  Stores that end with a store of the whole buffer.

  A buffer's contents after a list of stores are those of the newest store wherever it reaches. When the newest store
  covers the whole buffer — its rectangle starts at the origin and has the buffer's sizes — the earlier stores and the
  prior contents are gone: the buffer read back is that store's payload, and a load of any rectangle reads the payload at
  the rectangle's entries.
-/
import Idealize.ShloMosaic.Lib.Pipeline.FrameBody
import Idealize.ShloMosaic.Lib.Pipeline.Value

namespace Cert.WholeStore

open Idealize.ShloMosaic

variable {Val : EltTy → Type} [∀ e, Nonempty (Val e)] {sig : RefSig} {κ : Kind} {sp : Space} {S : Shape} {e : EltTy}

/-- A buffer read back after a list of stores whose NEWEST one stores the whole buffer holds that store's payload. -/
theorem read_writes_whole_last (v : View sig κ sp S e) (f : v.ty.Contents Val)
    {off : Fin S.rank → Nat} (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  subst h
  rw [View.read_writes_eq_canon _ _ _ (fun y => ⟨_, List.mem_cons_self, by
    show y ∈ (Rect.whole S).set; rw [Rect.set_whole]; exact Finset.mem_univ y⟩), View.canon_cons_unit_zero rfl]

/-- A load of any rectangle after such a list of stores reads the newest payload at the rectangle. -/
theorem readCov_whole_last (v : View sig κ sp S e)
    {off : Fin S.rank → Nat} (h : off = fun _ => 0) (inb : ∀ a, off a + S.size a ≤ S.size a) (w : S.Idx → Val e)
    (L : List (View.Piece Val S e)) (r : Rect S) :
    v.readCov ((⟨Rect.unit off S.size inb, w⟩ : View.Piece Val S e) :: L) r.toLoadRect = View.ld w r := by
  subst h
  rw [View.readCov_eq_canon_ld _ _ _ (fun y => ⟨_, List.mem_cons_self, by
    show y ∈ (Rect.whole S).set; rw [Rect.set_whole]; exact Finset.mem_univ y⟩), View.canon_cons_unit_zero rfl]

end Cert.WholeStore
-- ==== Proof.StepK.lean ====
/-
  One grid point of the kernel, as a step on buffer contents.

  The kernel keeps a 33 × 512 accumulator between grid points. At a point it (1) zeroes the accumulator if the
  reduction axis is at its first block, (2) adds to it the product of the transposed 5000 × 33 block
  [softmax rows of the first score block | softmax rows of the second | a column of ones] with the 5000 × 512 block of the
  incidence matrix, and (3) if the reduction axis is at its last block, divides rows 0‥15 and 16‥31 of the accumulator
  by row 32, takes the logarithms and stores the divergence terms into the 16 × 512 output block. The input blocks are
  left as they were. This file proves that step for any contents of the five buffers, at any float instance.
-/
import proofs.«107464_j57612691309114_2_alg».proof.Proof.Gen.Kernel.Frame
import proofs.«107464_j57612691309114_2_alg».proof.Proof.Gen.Kernel.Skeleton
import proofs.«107464_j57612691309114_2_alg».proof.Proof.LibWholeStore
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.WholeStore
open Idealize.ShloMosaic.Pipeline (Dat Cfg Window BodyObligation BodyObligationLoose cellOf)

variable {F : FTy → Type} [FloatOps F]

local notation "𝕄" => MT nD τ sig Unit (Elt F) ℕ (UR sig nD τ) ℕ

/-- The first conditional's test (the reduction axis is at its first block), from the grid coordinates. -/
abbrev cond1 (i : grid0.Coords) : Prop := (Scalar.cmpi .ne (Scalar.extui (Scalar.cmpi .eq (BitVec.ofNat 32 (i 1).val) 0#32)) 0#32) = 1#1
/-- The second conditional's test (the reduction axis is at its last block). -/
abbrev cond2 (i : grid0.Coords) : Prop := k0_cond2 i = 1#1

theorem hz2 : (![0, 0] : Fin 2 → Nat) = fun _ => 0 := funext fun a => by fin_cases a <;> rfl

/-- Row 32 of the accumulator, rows 0‥15 and rows 16‥31, as rectangles. -/
abbrev rDeg : Rect S33x512 := Rect.unit (s := S33x512) ![32, 0] S1x512.size Gen.inb_S33x512_S1x512_32_0
abbrev rFst : Rect S33x512 := Rect.unit (s := S33x512) ![0, 0] S16x512.size Gen.inb_S33x512_S16x512_0_0
abbrev rSnd : Rect S33x512 := Rect.unit (s := S33x512) ![16, 0] S16x512.size Gen.inb_S33x512_S16x512_16_0

/-- The accumulator after one point's addition, from the three input blocks and the accumulator before. -/
def accStep (x0 x1 : Vec F S5000x16 .f32) (x2 : Vec F S5000x512 .f32) (xs : Vec F S33x512 .f32) : Vec F S33x512 .f32 :=
  k0_pay1 (k0_pay4 x0 x1 x2 xs)

/-- The output block computed from a finished accumulator. -/
def finish (X : Vec F S33x512 .f32) : Vec F S16x512 .f32 :=
  k0_pay2 (View.ld X rDeg) (View.ld X rFst) (View.ld X rSnd)

theorem runB (c : Dev nD) (i : grid0.Coords) (arg2 : Memref sig .tc .vmem S5000x16 .f32) (harg2 : arg2.IsWhole) (arg3 : Memref sig .tc .vmem S5000x16 .f32) (harg3 : arg3.IsWhole) (arg4 : Memref sig .tc .vmem S5000x512 .f32) (harg4 : arg4.IsWhole) (arg5 : Memref sig .tc .vmem S16x512 .f32) (harg5 : arg5.IsWhole) (arg6 : Memref sig .tc .vmem S33x512 .f32) (harg6 : arg6.IsWhole)
    (hc1 : ¬cond1 i) (hc2 : ¬cond2 i)
    (x0 x1 : Vec F S5000x16 .f32) (x2 : Vec F S5000x512 .f32) (x3 : Vec F S16x512 .f32) (xs : Vec F S33x512 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (x3) ∗ owns (c : Thread nD τ) arg6 fullShare (accStep x0 x1 x2 xs)) -∗ K ⟨⟩))
      ⊢ wp frame (wpE (defs₀ (F := F)) Variants.none c none) E (cc0__v2e_kernel i arg2 harg2 arg3 harg3 arg4 harg4 arg5 harg5 arg6 harg6) K := by
  simp only [cc0__v2e_kernel_eq_skeleton]; unfold cc0__v2e_kernel_skel
  simp only [k0_part1_eq_skeleton]
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  have e : ∀ (w : Vec F S33x512 .f32) (L : List (View.Piece (Elt F) S33x512 .f32)) (r : Rect S33x512), arg6.view.readCov ((⟨Rect.unit ![0, 0] S33x512.size Gen.inb_S33x512_S33x512_0_0, w⟩ : View.Piece (Elt F) S33x512 .f32) :: L) r.toLoadRect = View.ld w r :=
    fun w L r => readCov_whole_last _ hz2 _ w L r
  isplitl [H3]
  · iexists _; isplitr; · ipureintro; exact harg5.read_unread _
    iexact H3
  iexists _; isplitr
  swap; · iexact HS
  ipureintro
  refine (read_writes_whole_last _ _ hz2 _ _ _).trans ?_
  unfold accStep
  sl_unfold_run_names
  simp only [e, View.readAt_eq_ld, harg2.read_unread, harg3.read_unread, harg4.read_unread, harg6.read_unread, View.ld_unit_zero (S := S5000x16) hz2, View.ld_unit_zero (S := S5000x512) hz2, View.ld_unit_zero (S := S33x512) hz2]

theorem runA (c : Dev nD) (i : grid0.Coords) (arg2 : Memref sig .tc .vmem S5000x16 .f32) (harg2 : arg2.IsWhole) (arg3 : Memref sig .tc .vmem S5000x16 .f32) (harg3 : arg3.IsWhole) (arg4 : Memref sig .tc .vmem S5000x512 .f32) (harg4 : arg4.IsWhole) (arg5 : Memref sig .tc .vmem S16x512 .f32) (harg5 : arg5.IsWhole) (arg6 : Memref sig .tc .vmem S33x512 .f32) (harg6 : arg6.IsWhole)
    (hc1 : cond1 i) (hc2 : ¬cond2 i)
    (x0 x1 : Vec F S5000x16 .f32) (x2 : Vec F S5000x512 .f32) (x3 : Vec F S16x512 .f32) (xs : Vec F S33x512 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (x3) ∗ owns (c : Thread nD τ) arg6 fullShare (accStep x0 x1 x2 k0_pay3)) -∗ K ⟨⟩))
      ⊢ wp frame (wpE (defs₀ (F := F)) Variants.none c none) E (cc0__v2e_kernel i arg2 harg2 arg3 harg3 arg4 harg4 arg5 harg5 arg6 harg6) K := by
  simp only [cc0__v2e_kernel_eq_skeleton]; unfold cc0__v2e_kernel_skel
  simp only [k0_part1_eq_skeleton]
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  have e : ∀ (w : Vec F S33x512 .f32) (L : List (View.Piece (Elt F) S33x512 .f32)) (r : Rect S33x512), arg6.view.readCov ((⟨Rect.unit ![0, 0] S33x512.size Gen.inb_S33x512_S33x512_0_0, w⟩ : View.Piece (Elt F) S33x512 .f32) :: L) r.toLoadRect = View.ld w r :=
    fun w L r => readCov_whole_last _ hz2 _ w L r
  isplitl [H3]
  · iexists _; isplitr; · ipureintro; exact harg5.read_unread _
    iexact H3
  iexists _; isplitr
  swap; · iexact HS
  ipureintro
  refine (read_writes_whole_last _ _ hz2 _ _ _).trans ?_
  unfold accStep
  sl_unfold_run_names
  simp only [e, View.readAt_eq_ld, harg2.read_unread, harg3.read_unread, harg4.read_unread, harg6.read_unread, View.ld_unit_zero (S := S5000x16) hz2, View.ld_unit_zero (S := S5000x512) hz2, View.ld_unit_zero (S := S33x512) hz2]

theorem runC (c : Dev nD) (i : grid0.Coords) (arg2 : Memref sig .tc .vmem S5000x16 .f32) (harg2 : arg2.IsWhole) (arg3 : Memref sig .tc .vmem S5000x16 .f32) (harg3 : arg3.IsWhole) (arg4 : Memref sig .tc .vmem S5000x512 .f32) (harg4 : arg4.IsWhole) (arg5 : Memref sig .tc .vmem S16x512 .f32) (harg5 : arg5.IsWhole) (arg6 : Memref sig .tc .vmem S33x512 .f32) (harg6 : arg6.IsWhole)
    (hc1 : ¬cond1 i) (hc2 : cond2 i)
    (x0 x1 : Vec F S5000x16 .f32) (x2 : Vec F S5000x512 .f32) (x3 : Vec F S16x512 .f32) (xs : Vec F S33x512 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (finish (accStep x0 x1 x2 xs)) ∗ owns (c : Thread nD τ) arg6 fullShare (accStep x0 x1 x2 xs)) -∗ K ⟨⟩))
      ⊢ wp frame (wpE (defs₀ (F := F)) Variants.none c none) E (cc0__v2e_kernel i arg2 harg2 arg3 harg3 arg4 harg4 arg5 harg5 arg6 harg6) K := by
  simp only [cc0__v2e_kernel_eq_skeleton]; unfold cc0__v2e_kernel_skel
  simp only [k0_part1_eq_skeleton]
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  have e : ∀ (w : Vec F S33x512 .f32) (L : List (View.Piece (Elt F) S33x512 .f32)) (r : Rect S33x512), arg6.view.readCov ((⟨Rect.unit ![0, 0] S33x512.size Gen.inb_S33x512_S33x512_0_0, w⟩ : View.Piece (Elt F) S33x512 .f32) :: L) r.toLoadRect = View.ld w r :=
    fun w L r => readCov_whole_last _ hz2 _ w L r
  isplitl [H3]
  · iexists _; isplitr
    swap; · iexact H3
    ipureintro
    refine (read_writes_whole_last _ _ hz2 _ _ _).trans ?_
    unfold finish accStep
    sl_unfold_run_names
    simp only [e, View.readAt_eq_ld, harg2.read_unread, harg3.read_unread, harg4.read_unread, harg6.read_unread, View.ld_unit_zero (S := S5000x16) hz2, View.ld_unit_zero (S := S5000x512) hz2, View.ld_unit_zero (S := S33x512) hz2]
  iexists _; isplitr
  swap; · iexact HS
  ipureintro
  sl_unfold_run_names
  refine (read_writes_whole_last _ _ hz2 _ _ _).trans ?_
  unfold accStep
  sl_unfold_run_names
  simp only [e, View.readAt_eq_ld, harg2.read_unread, harg3.read_unread, harg4.read_unread, harg6.read_unread, View.ld_unit_zero (S := S5000x16) hz2, View.ld_unit_zero (S := S5000x512) hz2, View.ld_unit_zero (S := S33x512) hz2]

theorem runD (c : Dev nD) (i : grid0.Coords) (arg2 : Memref sig .tc .vmem S5000x16 .f32) (harg2 : arg2.IsWhole) (arg3 : Memref sig .tc .vmem S5000x16 .f32) (harg3 : arg3.IsWhole) (arg4 : Memref sig .tc .vmem S5000x512 .f32) (harg4 : arg4.IsWhole) (arg5 : Memref sig .tc .vmem S16x512 .f32) (harg5 : arg5.IsWhole) (arg6 : Memref sig .tc .vmem S33x512 .f32) (harg6 : arg6.IsWhole)
    (hc1 : cond1 i) (hc2 : cond2 i)
    (x0 x1 : Vec F S5000x16 .f32) (x2 : Vec F S5000x512 .f32) (x3 : Vec F S16x512 .f32) (xs : Vec F S33x512 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (finish (accStep x0 x1 x2 k0_pay3)) ∗ owns (c : Thread nD τ) arg6 fullShare (accStep x0 x1 x2 k0_pay3)) -∗ K ⟨⟩))
      ⊢ wp frame (wpE (defs₀ (F := F)) Variants.none c none) E (cc0__v2e_kernel i arg2 harg2 arg3 harg3 arg4 harg4 arg5 harg5 arg6 harg6) K := by
  simp only [cc0__v2e_kernel_eq_skeleton]; unfold cc0__v2e_kernel_skel
  simp only [k0_part1_eq_skeleton]
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  have e : ∀ (w : Vec F S33x512 .f32) (L : List (View.Piece (Elt F) S33x512 .f32)) (r : Rect S33x512), arg6.view.readCov ((⟨Rect.unit ![0, 0] S33x512.size Gen.inb_S33x512_S33x512_0_0, w⟩ : View.Piece (Elt F) S33x512 .f32) :: L) r.toLoadRect = View.ld w r :=
    fun w L r => readCov_whole_last _ hz2 _ w L r
  isplitl [H3]
  · iexists _; isplitr
    swap; · iexact H3
    ipureintro
    refine (read_writes_whole_last _ _ hz2 _ _ _).trans ?_
    unfold finish accStep
    sl_unfold_run_names
    simp only [e, View.readAt_eq_ld, harg2.read_unread, harg3.read_unread, harg4.read_unread, harg6.read_unread, View.ld_unit_zero (S := S5000x16) hz2, View.ld_unit_zero (S := S5000x512) hz2, View.ld_unit_zero (S := S33x512) hz2]
  iexists _; isplitr
  swap; · iexact HS
  ipureintro
  sl_unfold_run_names
  refine (read_writes_whole_last _ _ hz2 _ _ _).trans ?_
  unfold accStep
  sl_unfold_run_names
  simp only [e, View.readAt_eq_ld, harg2.read_unread, harg3.read_unread, harg4.read_unread, harg6.read_unread, View.ld_unit_zero (S := S5000x16) hz2, View.ld_unit_zero (S := S5000x512) hz2, View.ld_unit_zero (S := S33x512) hz2]

/-- The accumulator as the addition finds it: zeroed at a first block, else as the point before left it. -/
def accIn (i : grid0.Coords) (xs : Vec F S33x512 .f32) : Vec F S33x512 .f32 :=
  haveI : Decidable (cond1 i) := inferInstanceAs (Decidable (_ = _)); if cond1 i then k0_pay3 else xs

/-- The output buffer after the point: the finished block at a last block of the reduction axis, else untouched. -/
def outAfter (i : grid0.Coords) (x3 : Vec F S16x512 .f32) (X : Vec F S33x512 .f32) : Vec F S16x512 .f32 :=
  haveI : Decidable (cond2 i) := inferInstanceAs (Decidable (_ = _)); if cond2 i then finish X else x3

/-- The step at any point: the inputs kept, the accumulator advanced from `accIn`, the output as `outAfter`. -/
theorem run_point (c : Dev nD) (i : grid0.Coords) (arg2 : Memref sig .tc .vmem S5000x16 .f32) (harg2 : arg2.IsWhole) (arg3 : Memref sig .tc .vmem S5000x16 .f32) (harg3 : arg3.IsWhole) (arg4 : Memref sig .tc .vmem S5000x512 .f32) (harg4 : arg4.IsWhole) (arg5 : Memref sig .tc .vmem S16x512 .f32) (harg5 : arg5.IsWhole) (arg6 : Memref sig .tc .vmem S33x512 .f32) (harg6 : arg6.IsWhole)
    (x0 x1 : Vec F S5000x16 .f32) (x2 : Vec F S5000x512 .f32) (x3 : Vec F S16x512 .f32) (xs : Vec F S33x512 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (outAfter i x3 (accStep x0 x1 x2 (accIn i xs))) ∗ owns (c : Thread nD τ) arg6 fullShare (accStep x0 x1 x2 (accIn i xs))) -∗ K ⟨⟩))
      ⊢ wp frame (wpE (defs₀ (F := F)) Variants.none c none) E (cc0__v2e_kernel i arg2 harg2 arg3 harg3 arg4 harg4 arg5 harg5 arg6 harg6) K := by
  unfold accIn outAfter
  by_cases hc1 : cond1 i <;> by_cases hc2 : cond2 i
  · rw [if_pos hc1, if_pos hc2]; exact runD c i arg2 harg2 arg3 harg3 arg4 harg4 arg5 harg5 arg6 harg6 hc1 hc2 x0 x1 x2 x3 xs E K
  · rw [if_pos hc1, if_neg hc2]; exact runA c i arg2 harg2 arg3 harg3 arg4 harg4 arg5 harg5 arg6 harg6 hc1 hc2 x0 x1 x2 x3 xs E K
  · rw [if_neg hc1, if_pos hc2]; exact runC c i arg2 harg2 arg3 harg3 arg4 harg4 arg5 harg5 arg6 harg6 hc1 hc2 x0 x1 x2 x3 xs E K
  · rw [if_neg hc1, if_neg hc2]; exact runB c i arg2 harg2 arg3 harg3 arg4 harg4 arg5 harg5 arg6 harg6 hc1 hc2 x0 x1 x2 x3 xs E K

end Cert.Kernel.Body

end
-- ==== Proof.FrameK.lean ====
/-
  The kernel's hundred grid points in order: what each buffer holds before and after each point.

  The grid is 10 column tiles of the incidence matrix by 10 row blocks, the row block moving fastest. The two score
  blocks and the incidence block are fetched at every point; the output block is written back at the last row block
  of each column tile. The last column tile overhangs the matrix (10 · 512 > 5000): what a fetch leaves in the
  incidence buffer past the matrix's last column is not named, so the accumulator is tracked by a PREDICATE `G` on
  its contents rather than by a formula, and the output block is stated on the columns inside the matrix only.
  Everything here holds at any float instance; `G` and the output blocks `out3` are parameters.
-/
import proofs.«107464_j57612691309114_2_alg».proof.Proof.StepK
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen Cert.Kernel.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditionals and the idle points, over the grid -/

theorem hcond1 : ∀ t : Fin cfg0.N, cond1 (grid0.coords t) ↔ t.val % 10 = 0 :=
  (by decide +kernel : ∀ t : Fin grid0.N, cond1 (grid0.coords t) ↔ t.val % 10 = 0)
theorem hcond2 : ∀ t : Fin cfg0.N, cond2 (grid0.coords t) ↔ t.val % 10 = 9 :=
  (by decide +kernel : ∀ t : Fin grid0.N, cond2 (grid0.coords t) ↔ t.val % 10 = 9)
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem idle3 : ∀ t : Fin cfg0.N, ¬cond2 (grid0.coords t) → cfg0.idle 3 (grid0.coords t) = true := by decide +kernel
theorem live3 : ∀ t : Fin cfg0.N, cond2 (grid0.coords t) → cfg0.idle 3 (grid0.coords t) = false := by decide +kernel
theorem noFlush3 : ∀ t : Fin cfg0.N, ¬cond2 (grid0.coords t) → (cfg0.win 3).flush t = false := by decide +kernel
theorem loose0 : cfg0.loose 0 = false := rfl
theorem loose1 : cfg0.loose 1 = false := rfl
theorem loose2 : cfg0.loose 2 = true := rfl
theorem loose3 : cfg0.loose 3 = true := rfl

/-! ## The buffers a point runs on -/

abbrev ms0 (t : Fin cfg0.N) : Memref sig .tc .vmem S5000x16 .f32 := win0_0.stage (cfg0.slots t 0)
abbrev hs0 (t : Fin cfg0.N) : (ms0 t).IsWhole := Gen.hstage0_0 ((cfg0.slots t 0).cast Gen.nbuf0_0)
abbrev ms1 (t : Fin cfg0.N) : Memref sig .tc .vmem S5000x16 .f32 := win0_1.stage (cfg0.slots t 1)
abbrev hs1 (t : Fin cfg0.N) : (ms1 t).IsWhole := Gen.hstage0_1 ((cfg0.slots t 1).cast Gen.nbuf0_1)
abbrev ms2 (t : Fin cfg0.N) : Memref sig .tc .vmem S5000x512 .f32 := win0_2.stage (cfg0.slots t 2)
abbrev hs2 (t : Fin cfg0.N) : (ms2 t).IsWhole := Gen.hstage0_2 ((cfg0.slots t 2).cast Gen.nbuf0_2)
abbrev ms3 (t : Fin cfg0.N) : Memref sig .tc .vmem S16x512 .f32 := win0_3.stage (cfg0.slots t 3)
abbrev hs3 (t : Fin cfg0.N) : (ms3 t).IsWhole := Gen.hstage0_3 ((cfg0.slots t 3).cast Gen.nbuf0_3)
/-- The accumulator: a buffer of the kernel's own, kept between points. -/
abbrev scM : Memref sig .tc .vmem S33x512 .f32 := Memref.whole cc0_scratch0

/-- What the region is entered with beside the windows: the accumulator at some contents, the generator at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The incidence block of point `t` as a fetch leaves it in its buffer: inside the matrix the matrix's entries, past
    its last column what `d` holds there. -/
def hblk (c : Dev nD) (t : Fin cfg0.N) (d : Vec F S5000x512 .f32) : Vec F S5000x512 .f32 :=
  win0_2.fill (grid0.coords t) d (iblk m c 2 t)

variable (G : Dev nD → ℕ → Vec F S33x512 .f32 → Prop) (out3 : Dev nD → Fin cfg0.N → Vec F S16x512 .f32)

/-- What is kept beside the windows before position `n`: at first what the region was entered with; after point
    `n - 1` the accumulator at contents of which `G (n - 1)` holds, the generator at some state. -/
def PhiS (c : Dev nD) : (n : ℕ) → n ≤ cfg0.N → sProp 𝕄
  | 0, _ => Pipeline.ΦA spec0 c
  | n + 1, _ => iprop(iprop(∃ X, ⌜G c n X⌝ ∗ owns (c : Thread nD τ) scM fullShare X) ∗ (∃ r, prngReg c r))

theorem PhiS_zero (c : Dev nD) (n : ℕ) (h : n ≤ cfg0.N) (hz : n = 0) : PhiS G c n h = Pipeline.ΦA spec0 c := by
  subst hz; rfl
theorem PhiS_succ (c : Dev nD) (n : ℕ) (hn : n < cfg0.N) :
    PhiS G c (n + 1) hn = iprop(iprop(∃ X, ⌜G c n X⌝ ∗ owns (c : Thread nD τ) scM fullShare X) ∗ (∃ r, prngReg c r)) := rfl
theorem PhiS_pos (c : Dev nD) (n : ℕ) (h : n ≤ cfg0.N) (hz : n ≠ 0) :
    PhiS G c n h = iprop(iprop(∃ X, ⌜G c (n - 1) X⌝ ∗ owns (c : Thread nD τ) scM fullShare X) ∗ (∃ r, prngReg c r)) := by
  cases n with
  | zero => exact absurd rfl hz
  | succ n => rfl

/-- The pipeline's data on core `c`: the arrays as the region finds them; after a point the score buffers at their
    blocks, the incidence buffer at its block (filled out with zeros past the matrix), the output buffer at `out3`;
    beside the windows `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => hblk m c t (fun _ => Scalar.ofBits .f32 0#32)
    | ⟨3, _⟩ => out3 c t
  Φ t := PhiS G c t.val (Nat.le_of_lt_succ t.isLt)
  q _ := fullShare
  owed _ := 0

theorem A_eq (c : Dev nD) (w : Fin cfg0.W) : (dats m G out3 0 c).A w = V m c (Pipeline.arrRef spec0 w) := by
  dsimp only [dats]
theorem PhiS_castSucc (c : Dev nD) (t : Fin cfg0.N) :
    (dats m G out3 0 c).Φ t.castSucc = PhiS G c t.val (Nat.le_of_lt t.isLt) := by
  dsimp only [dats]; simp only [Fin.coe_castSucc]
theorem after0 (c : Dev nD) (t : Fin cfg0.N) : (dats m G out3 0 c).after 0 t = iblk m c 0 t := by dsimp only [dats]
theorem after1 (c : Dev nD) (t : Fin cfg0.N) : (dats m G out3 0 c).after 1 t = iblk m c 1 t := by dsimp only [dats]
theorem after2 (c : Dev nD) (t : Fin cfg0.N) :
    (dats m G out3 0 c).after 2 t = hblk m c t (fun _ => Scalar.ofBits .f32 0#32) := by dsimp only [dats]
theorem after3 (c : Dev nD) (t : Fin cfg0.N) : (dats m G out3 0 c).after 3 t = out3 c t := by dsimp only [dats]

theorem before0 (c : Dev nD) (t : Fin cfg0.N) (d) : (dats m G out3 0 c).before 0 t d = iblk m c 0 t :=
  before0_0_of m (dats m G out3 0 c) (A_eq m G out3 c 0) (after0 m G out3 c) t d
theorem before1 (c : Dev nD) (t : Fin cfg0.N) (d) : (dats m G out3 0 c).before 1 t d = iblk m c 1 t :=
  before0_1_of m (dats m G out3 0 c) (A_eq m G out3 c 1) (after1 m G out3 c) t d
/-- The incidence buffer is fetched at every point. -/
theorem before2 (c : Dev nD) (t : Fin cfg0.N) (d) : (dats m G out3 0 c).before 2 t d = hblk m c t d := by
  unfold Dat.before; rw [if_pos (fetch0_2 t)]
  unfold Dat.fetched Dat.blockOf hblk iblk; rw [A_eq]; try rfl

/-! ## One point, on the pipeline's buffers -/

/-- `G` keeps up with the points: whatever a fetch left past the matrix, the accumulator after point `t` satisfies
    `G t` if (past a first block) the accumulator before it satisfied `G (t - 1)`. -/
def Tracks (c : Dev nD) : Prop :=
  ∀ (t : Fin cfg0.N) (d : Vec F S5000x512 .f32) (Y : Vec F S33x512 .f32), (t.val % 10 ≠ 0 → G c (t.val - 1) Y) →
    G c t.val (accStep (iblk m c 0 t) (iblk m c 1 t) (hblk m c t d) (accIn (grid0.coords t) Y))

/-- At a last block of the reduction axis the finished output block agrees with `out3` on the columns the write-back
    moves, whatever accumulator satisfying `G` it was computed from. -/
def Outs (c : Dev nD) : Prop :=
  ∀ (t : Fin cfg0.N), t.val % 10 = 9 → ∀ X : Vec F S33x512 .f32, G c t.val X →
    (cfg0.win 3).cut (cfg0.grid.coords t) (finish X) = (cfg0.win 3).cut (cfg0.grid.coords t) (out3 c t)

/-- The point's step on the pipeline's buffers, in continuation form: from the kept state before point `t`, the three
    input buffers at their blocks and the output buffer at `x3`, the body runs to the accumulator at some `X` with
    `G t X`, the inputs unchanged, and the output buffer at `outAfter`. -/
theorem point_core (c : Dev nD) (hG : Tracks m G c) (t : Fin cfg0.N) (d2 : Vec F S5000x512 .f32) (x3 : Vec F S16x512 .f32)
    (R : sProp 𝕄) (K : PUnit → sProp 𝕄)
    (hK : ∀ X : Vec F S33x512 .f32, G c t.val X →
      iprop(R ∗ owns (c : Thread nD τ) scM fullShare X ∗ (∃ r, prngReg c r)
        ∗ owns (c : Thread nD τ) (ms0 t) fullShare (iblk m c 0 t) ∗ owns (c : Thread nD τ) (ms1 t) fullShare (iblk m c 1 t)
        ∗ owns (c : Thread nD τ) (ms2 t) fullShare (hblk m c t d2)
        ∗ owns (c : Thread nD τ) (ms3 t) fullShare (outAfter (grid0.coords t) x3 X)) ⊢ K ⟨⟩) :
    iprop(R ∗ PhiS G c t.val (Nat.le_of_lt t.isLt)
        ∗ owns (c : Thread nD τ) (ms0 t) fullShare (iblk m c 0 t) ∗ owns (c : Thread nD τ) (ms1 t) fullShare (iblk m c 1 t)
        ∗ owns (c : Thread nD τ) (ms2 t) fullShare (hblk m c t d2) ∗ owns (c : Thread nD τ) (ms3 t) fullShare x3)
      ⊢ wp frame (wpE (defs₀ (F := F)) Variants.none c none) Set.univ (bodyAt0 t) K := by
  unfold bodyAt0
  by_cases hz : t.val = 0
  · rw [PhiS_zero G c _ _ hz, PhiA_eq]
    iintro ⟨HR, ⟨⟨%xs, HS⟩, Hg⟩, H0, H1, H2, H3⟩
    iapply (run_point c (grid0.coords t) (ms0 t) (hs0 t) (ms1 t) (hs1 t) (ms2 t) (hs2 t) (ms3 t) (hs3 t) scM (Memref.isWhole_whole _)
      (iblk m c 0 t) (iblk m c 1 t) (hblk m c t d2) x3 xs Set.univ K)
    isplitl [H0]; · iexact H0
    isplitl [H1]; · iexact H1
    isplitl [H2]; · iexact H2
    isplitl [H3]; · iexact H3
    isplitl [HS]; · iexact HS
    iintro ⟨H0, H1, H2, H3, HS⟩
    iapply (hK _ (hG t d2 xs (fun h => absurd (by rw [hz]) h)))
    isplitl [HR]; · iexact HR
    isplitl [HS]; · iexact HS
    isplitl [Hg]; · iexact Hg
    isplitl [H0]; · iexact H0
    isplitl [H1]; · iexact H1
    isplitl [H2]; · iexact H2
    iexact H3
  · rw [PhiS_pos G c _ _ hz]
    iintro ⟨HR, ⟨⟨%xs, %hxs, HS⟩, Hg⟩, H0, H1, H2, H3⟩
    iapply (run_point c (grid0.coords t) (ms0 t) (hs0 t) (ms1 t) (hs1 t) (ms2 t) (hs2 t) (ms3 t) (hs3 t) scM (Memref.isWhole_whole _)
      (iblk m c 0 t) (iblk m c 1 t) (hblk m c t d2) x3 xs Set.univ K)
    isplitl [H0]; · iexact H0
    isplitl [H1]; · iexact H1
    isplitl [H2]; · iexact H2
    isplitl [H3]; · iexact H3
    isplitl [HS]; · iexact HS
    iintro ⟨H0, H1, H2, H3, HS⟩
    iapply (hK _ (hG t d2 xs (fun _ => hxs)))
    isplitl [HR]; · iexact HR
    isplitl [HS]; · iexact HS
    isplitl [Hg]; · iexact Hg
    isplitl [H0]; · iexact H0
    isplitl [H1]; · iexact H1
    isplitl [H2]; · iexact H2
    iexact H3

/-! ## The body obligation, every buffer named -/

def bodyPre (c : Dev nD) (t : Fin cfg0.N) : sProp 𝕄 :=
  iprop((dats m G out3 0 c).Φ t.castSucc ∗ (dats m G out3 0 c).owesAt () t.castSucc
    ∗ (∃ d, owns (c : Thread nD τ) (ms0 t) fullShare ((dats m G out3 0 c).before 0 t d))
    ∗ (∃ d, owns (c : Thread nD τ) (ms1 t) fullShare ((dats m G out3 0 c).before 1 t d))
    ∗ (∃ d, owns (c : Thread nD τ) (ms2 t) fullShare ((dats m G out3 0 c).before 2 t d))
    ∗ (∃ d, owns (c : Thread nD τ) (ms3 t) fullShare ((dats m G out3 0 c).before 3 t d)))

def bodyPost (c : Dev nD) (t : Fin cfg0.N) : sProp 𝕄 :=
  iprop((dats m G out3 0 c).Φ t.succ ∗ (dats m G out3 0 c).owesAt () t.succ
    ∗ (dats m G out3 0 c).leaves 0 t ∗ (dats m G out3 0 c).leaves 1 t ∗ (dats m G out3 0 c).leaves 2 t ∗ (dats m G out3 0 c).leaves 3 t)

theorem leaves0 (c : Dev nD) (t : Fin cfg0.N) :
    (dats m G out3 0 c).leaves 0 t = owns (c : Thread nD τ) (ms0 t) fullShare (iblk m c 0 t) := by
  unfold Dat.leaves; rw [live0 t, loose0, after0]
theorem leaves1 (c : Dev nD) (t : Fin cfg0.N) :
    (dats m G out3 0 c).leaves 1 t = owns (c : Thread nD τ) (ms1 t) fullShare (iblk m c 1 t) := by
  unfold Dat.leaves; rw [live1 t, loose1, after1]
theorem leaves2 (c : Dev nD) (t : Fin cfg0.N) :
    (dats m G out3 0 c).leaves 2 t = iprop(∃ d, owns (c : Thread nD τ) (ms2 t) fullShare (hblk m c t d)) := by
  unfold Dat.leaves; rw [live2 t, loose2, after2]
  exact congrArg (fun g => iprop(∃ d, owns (c : Thread nD τ) (ms2 t) fullShare ((cfg0.win 2).fill (cfg0.grid.coords t) d g)))
    ((cfg0.win 2).cut_fill (cfg0.grid.coords t) (fun _ => Scalar.ofBits .f32 0#32) (iblk m c 2 t))

/-- The output window where the body stores nothing: handed back as found. -/
theorem leaves3_idle (c : Dev nD) (t : Fin cfg0.N) (h2 : ¬cond2 (grid0.coords t)) :
    (dats m G out3 0 c).leaves 3 t = iprop(∃ d, owns (c : Thread nD τ) (ms3 t) fullShare ((dats m G out3 0 c).before 3 t d)) :=
  Dat.leaves_idle (dats m G out3 0 c) 3 t (idle3 t h2) (noFlush3 t h2)
/-- The output window at a last block: stated on the columns the write-back moves. -/
theorem leaves3_live (c : Dev nD) (t : Fin cfg0.N) (h2 : cond2 (grid0.coords t)) :
    (dats m G out3 0 c).leaves 3 t = iprop(∃ d, owns (c : Thread nD τ) (ms3 t) fullShare ((cfg0.win 3).fill (cfg0.grid.coords t) d
      ((cfg0.win 3).cut (cfg0.grid.coords t) (out3 c t)))) := by
  unfold Dat.leaves; rw [live3 t h2, loose3, after3]
  rfl

set_option maxHeartbeats 1600000 in
theorem sound_body (c : Dev nD) (hG : Tracks m G c) (hO : Outs G out3 c) (t : Fin cfg0.N) :
    bodyPre m G out3 c t ⊢ wp frame (wpE (defs₀ (F := F)) Variants.none c none) Set.univ (bodyAt0 t) (fun _ => bodyPost m G out3 c t) := by
  unfold bodyPre bodyPost
  simp only [before0, before1, before2]
  rw [show (dats m G out3 0 c).owesAt () t.succ = (dats m G out3 0 c).owesAt () t.castSucc from rfl,
    show (dats m G out3 0 c).Φ t.succ = PhiS G c (t.val + 1) t.isLt from rfl, PhiS_succ, PhiS_castSucc,
    leaves0, leaves1, leaves2]
  iintro ⟨HΦ, Ho, ⟨%d0, H0⟩, ⟨%d1, H1⟩, ⟨%d2, H2⟩, ⟨%d3, H3⟩⟩
  iapply (point_core m G c hG t d2 ((dats m G out3 0 c).before 3 t d3) ((dats m G out3 0 c).owesAt () t.castSucc) _ ?hK)
  case hK =>
    intro X hX
    iintro ⟨Ho, HS, Hg, H0, H1, H2, H3⟩
    isplitl [HS Hg]
    · isplitl [HS]
      · iexists X; isplitr; · ipureintro; exact hX
        iexact HS
      iexact Hg
    isplitl [Ho]; · iexact Ho
    isplitl [H0]; · iexact H0
    isplitl [H1]; · iexact H1
    isplitl [H2]; · iexists d2; iexact H2
    by_cases h2 : cond2 (grid0.coords t)
    · rw [leaves3_live m G out3 c t h2]
      iexists (finish X)
      rw [← hO t ((hcond2 t).mp h2) X hX, (cfg0.win 3).fill_cut]
      unfold outAfter; rw [if_pos h2]
      iexact H3
    · rw [leaves3_idle m G out3 c t h2]
      iexists d3
      unfold outAfter; rw [if_neg h2]
      iexact H3
  isplitl [Ho]; · iexact Ho
  isplitl [HΦ]; · iexact HΦ
  isplitl [H0]; · iexact H0
  isplitl [H1]; · iexact H1
  isplitl [H2]; · iexact H2
  iexact H3

/-- The library's body obligation, every window named. -/
theorem body_obligation (c : Dev nD) (hG : Tracks m G c) (hO : Outs G out3 c) :
    BodyObligationLoose (dats (F := F) m G out3 0 c) (defs₀ (F := F)) Variants.none () Set.univ := fun t => by
  rw [bigSep_W0, bigSep_W0]
  exact sound_body m G out3 c hG hO t

/-! ## The body obligation with the output window forgotten

For a claim that does not read the result (that the arguments end unchanged), nothing need be said of what the body
leaves in the output window: it is handed over at any contents and taken back at any. -/

/-- The one window forgotten: the output's. -/
def forgets3 : Fin 4 → Bool := fun w => w.val == 3

def bodyPreF (c : Dev nD) (t : Fin cfg0.N) : sProp 𝕄 :=
  iprop((dats m G out3 0 c).Φ t.castSucc ∗ (dats m G out3 0 c).owesAt () t.castSucc
    ∗ (∃ d, owns (c : Thread nD τ) (ms0 t) fullShare ((dats m G out3 0 c).before 0 t d))
    ∗ (∃ d, owns (c : Thread nD τ) (ms1 t) fullShare ((dats m G out3 0 c).before 1 t d))
    ∗ (∃ d, owns (c : Thread nD τ) (ms2 t) fullShare ((dats m G out3 0 c).before 2 t d))
    ∗ (∃ X, owns (c : Thread nD τ) (ms3 t) fullShare X))

def bodyPostF (c : Dev nD) (t : Fin cfg0.N) : sProp 𝕄 :=
  iprop((dats m G out3 0 c).Φ t.succ ∗ (dats m G out3 0 c).owesAt () t.succ
    ∗ (dats m G out3 0 c).leaves 0 t ∗ (dats m G out3 0 c).leaves 1 t ∗ (dats m G out3 0 c).leaves 2 t ∗ (∃ X, owns (c : Thread nD τ) (ms3 t) fullShare X))

set_option maxHeartbeats 1600000 in
theorem sound_bodyF (c : Dev nD) (hG : Tracks m G c) (t : Fin cfg0.N) :
    bodyPreF m G out3 c t ⊢ wp frame (wpE (defs₀ (F := F)) Variants.none c none) Set.univ (bodyAt0 t) (fun _ => bodyPostF m G out3 c t) := by
  unfold bodyPreF bodyPostF
  simp only [before0, before1, before2]
  rw [show (dats m G out3 0 c).owesAt () t.succ = (dats m G out3 0 c).owesAt () t.castSucc from rfl,
    show (dats m G out3 0 c).Φ t.succ = PhiS G c (t.val + 1) t.isLt from rfl, PhiS_succ, PhiS_castSucc,
    leaves0, leaves1, leaves2]
  iintro ⟨HΦ, Ho, ⟨%d0, H0⟩, ⟨%d1, H1⟩, ⟨%d2, H2⟩, ⟨%x3, H3⟩⟩
  iapply (point_core m G c hG t d2 x3 ((dats m G out3 0 c).owesAt () t.castSucc) _ ?hK)
  case hK =>
    intro X hX
    iintro ⟨Ho, HS, Hg, H0, H1, H2, H3⟩
    isplitl [HS Hg]
    · isplitl [HS]
      · iexists X; isplitr; · ipureintro; exact hX
        iexact HS
      iexact Hg
    isplitl [Ho]; · iexact Ho
    isplitl [H0]; · iexact H0
    isplitl [H1]; · iexact H1
    isplitl [H2]; · iexists d2; iexact H2
    iexists _; iexact H3
  isplitl [Ho]; · iexact Ho
  isplitl [HΦ]; · iexact HΦ
  isplitl [H0]; · iexact H0
  isplitl [H1]; · iexact H1
  isplitl [H2]; · iexact H2
  iexact H3

theorem body_obligationF (c : Dev nD) (hG : Tracks m G c) :
    BodyObligationLoose (dats (F := F) m G out3 0 c) (defs₀ (F := F)) Variants.none () Set.univ forgets3 := fun t => by
  rw [bigSep_W0, bigSep_W0]
  exact sound_bodyF m G out3 c hG t

/-! ## Entering and leaving the region -/

theorem hin (c : Dev nD) : Pipeline.ΦA spec0 c ⊢ (dats m G out3 0 c).Φ 0 := by
  rw [show (dats m G out3 0 c).Φ 0 = PhiS G c 0 (Nat.zero_le _) from rfl, PhiS_zero G c 0 _ rfl]
  try exact Idealize.SL.BI.Entails.refl _

theorem hout (c : Dev nD) : (dats m G out3 0 c).Φ (Fin.last cfg0.N) ⊢ Pipeline.ΦA spec0 c := by
  rw [show (dats m G out3 0 c).Φ (Fin.last cfg0.N) = PhiS G c (Fin.last cfg0.N).val (Nat.le_of_lt_succ (Fin.last cfg0.N).isLt) from rfl,
    PhiS_pos G c _ _ (by rw [Fin.val_last]; have : cfg0.N = 100 := N_0; omega), PhiA_eq]
  iintro ⟨⟨%X, %hX, HS⟩, Hg⟩
  isplitl [HS]
  · iexists _; iexact HS
  iexact Hg

/-! ## The runs -/

set_option backward.isDefEq.respectTransparency.types false in
/-- Every weakly fair execution of @main terminates without a fault; every array of the call ends at what the write-backs
    of `out3` make of it, every other buffer at what the host lines after the call compute. -/
theorem run_main (hG : ∀ c, Tracks m G c) (hO : ∀ c, Outs G out3 c) :
    θ_run defs (onTc (τ := τ) (main (F := F))) (s₀ m ρ)
      (Pipeline.FramePost cfgs (dats m G out3) 0 (Pipeline.afterTail₀ cfgs (dats m G out3) 0 (V0 m) [hostOps1])) :=
  Pipeline.θ_run_frame_around_track cfgs (dats m G out3) (0 : Fin 1) launch0 defs₀ Variants.none m ρ main
    (hbody := fun c => body_obligation m G out3 c (hG c) (hO c)) (hshare := fun c => (dats m G out3 0 c).share_full fun _ => rfl)
    (howed := fun _ _ => rfl) (V₀ := V0 m) (opss := [hostOps1]) (hsub := sfx_sub) (hfresh := sfx_fresh) (hkeep := sfx_keeps)
    (hmain := hmain m Variants.none) (hA := A_eq m G out3) (hin := hin m G out3) (hout := hout m G out3)

/-- The buffers the host lines after the call may write: any but the mask argument. -/
def tailWrites : Finset (Ref sig .tc) := Finset.univ.erase main_arg3

theorem tail_writes : ∀ ops ∈ ([hostOps1] : List (List (HloOp τ sig (Elt F)))), ∀ op ∈ ops,
    ∀ b : Ref sig .tc, Proc.devRef .tc b ∈ op.writes → b ∈ tailWrites := by
  intro ops hops op hop b hb
  refine Finset.mem_erase.mpr ⟨fun e => ?_, Finset.mem_univ _⟩
  subst e
  revert hb
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl
  all_goals simp only [StableHlo.nullary_writes, StableHlo.unary_writes, StableHlo.binary_writes, Finset.mem_singleton] <;> exact StableHlo.devRef_ne_of_ne (by decide)

set_option backward.isDefEq.respectTransparency.types false in
/-- The same run with the output window forgotten: the input arrays end as they were entered, and every buffer the
    host lines do not write ends as the region found it. -/
theorem run_mainF (hG : ∀ c, Tracks m G c) :
    θ_run defs (onTc (τ := τ) (main (F := F))) (s₀ m ρ)
      (Pipeline.RDat.FramePostR (cfgs 0) (fun c => (dats m G out3 0 c).toRForget forgets3) tailWrites (fun c b => V0 m c (Proc.devRef .tc b))) :=
  Pipeline.RDat.θ_run_frame_around_T_track cfgs (0 : Fin 1) launch0 defs₀ Variants.none (fun c => (dats m G out3 0 c).toRForget forgets3) tailWrites m ρ main
    (hbody := fun c => (body_obligationF m G out3 c (hG c)).toRForget)
    (hshare := fun c => ((dats m G out3 0 c).toRForget forgets3).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m G out3) (hin := hin m G out3) (hout := hout m G out3)

/-- The arguments end unchanged. -/
theorem frame (hG : ∀ c, Tracks m G c) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨?_, ?_, ?_, ?_⟩) (run_mainF m ρ G (fun _ _ _ => Scalar.ofBits .f32 0#32) hG)
  · have h0 := (h c).1 0
    rw [Pipeline.RDat.ArrAt_in _ 0 rfl] at h0
    exact h0.trans (V_main_arg0 m c)
  · have h0 := (h c).1 1
    rw [Pipeline.RDat.ArrAt_in _ 1 rfl] at h0
    exact h0.trans (V_main_arg1 m c)
  · have h0 := (h c).1 2
    rw [Pipeline.RDat.ArrAt_in _ 2 rfl] at h0
    exact h0.trans (V_main_arg2 m c)
  · exact ((h c).2 main_arg3 (Finset.mem_sdiff.mpr ⟨Pipeline.mem_restRefs_of main_arg3 (by decide) (by decide),
      by unfold tailWrites; simp⟩)).trans (V_main_arg3 m c)

end Cert.Kernel.Body

end
-- ==== Proof.StepI.lean ====
/-
  One grid point of the kernel, as a step on buffer contents.

  The kernel keeps a 33 × 512 accumulator between grid points. At a point it (1) zeroes the accumulator if the
  reduction axis is at its first block, (2) adds to it the product of the transposed 5000 × 33 block
  [softmax rows of the first score block | softmax rows of the second | a column of ones] with the 5000 × 512 block of the
  incidence matrix, and (3) if the reduction axis is at its last block, divides rows 0‥15 and 16‥31 of the accumulator
  by row 32, takes the logarithms and stores the divergence terms into the 16 × 512 output block. The input blocks are
  left as they were. This file proves that step for any contents of the five buffers, at any float instance.
-/
import proofs.«107464_j57612691309114_2_alg».proof.Proof.Gen.KernelIdeal.Frame
import proofs.«107464_j57612691309114_2_alg».proof.Proof.Gen.KernelIdeal.Skeleton
import proofs.«107464_j57612691309114_2_alg».proof.Proof.LibWholeStore
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.WholeStore
open Idealize.ShloMosaic.Pipeline (Dat Cfg Window BodyObligation BodyObligationLoose cellOf)

variable {F : FTy → Type} [FloatOps F]

local notation "𝕄" => MT nD τ sig Unit (Elt F) ℕ (UR sig nD τ) ℕ

/-- The first conditional's test (the reduction axis is at its first block), from the grid coordinates. -/
abbrev cond1 (i : grid0.Coords) : Prop := (Scalar.cmpi .ne (Scalar.extui (Scalar.cmpi .eq (BitVec.ofNat 32 (i 1).val) 0#32)) 0#32) = 1#1
/-- The second conditional's test (the reduction axis is at its last block). -/
abbrev cond2 (i : grid0.Coords) : Prop := k0_cond2 i = 1#1

theorem hz2 : (![0, 0] : Fin 2 → Nat) = fun _ => 0 := funext fun a => by fin_cases a <;> rfl

/-- Row 32 of the accumulator, rows 0‥15 and rows 16‥31, as rectangles. -/
abbrev rDeg : Rect S33x512 := Rect.unit (s := S33x512) ![32, 0] S1x512.size Gen.inb_S33x512_S1x512_32_0
abbrev rFst : Rect S33x512 := Rect.unit (s := S33x512) ![0, 0] S16x512.size Gen.inb_S33x512_S16x512_0_0
abbrev rSnd : Rect S33x512 := Rect.unit (s := S33x512) ![16, 0] S16x512.size Gen.inb_S33x512_S16x512_16_0

/-- The accumulator after one point's addition, from the three input blocks and the accumulator before. -/
def accStep (x0 x1 : Vec F S5000x16 .f32) (x2 : Vec F S5000x512 .f32) (xs : Vec F S33x512 .f32) : Vec F S33x512 .f32 :=
  k0_pay1 (k0_pay4 x0 x1 x2 xs)

/-- The output block computed from a finished accumulator. -/
def finish (X : Vec F S33x512 .f32) : Vec F S16x512 .f32 :=
  k0_pay2 (View.ld X rDeg) (View.ld X rFst) (View.ld X rSnd)

theorem runB (c : Dev nD) (i : grid0.Coords) (arg2 : Memref sig .tc .vmem S5000x16 .f32) (harg2 : arg2.IsWhole) (arg3 : Memref sig .tc .vmem S5000x16 .f32) (harg3 : arg3.IsWhole) (arg4 : Memref sig .tc .vmem S5000x512 .f32) (harg4 : arg4.IsWhole) (arg5 : Memref sig .tc .vmem S16x512 .f32) (harg5 : arg5.IsWhole) (arg6 : Memref sig .tc .vmem S33x512 .f32) (harg6 : arg6.IsWhole)
    (hc1 : ¬cond1 i) (hc2 : ¬cond2 i)
    (x0 x1 : Vec F S5000x16 .f32) (x2 : Vec F S5000x512 .f32) (x3 : Vec F S16x512 .f32) (xs : Vec F S33x512 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (x3) ∗ owns (c : Thread nD τ) arg6 fullShare (accStep x0 x1 x2 xs)) -∗ K ⟨⟩))
      ⊢ wp frame (wpE (defs₀ (F := F)) Variants.none c none) E (cc0__v2e_kernel i arg2 harg2 arg3 harg3 arg4 harg4 arg5 harg5 arg6 harg6) K := by
  simp only [cc0__v2e_kernel_eq_skeleton]; unfold cc0__v2e_kernel_skel
  simp only [k0_part1_eq_skeleton]
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  have e : ∀ (w : Vec F S33x512 .f32) (L : List (View.Piece (Elt F) S33x512 .f32)) (r : Rect S33x512), arg6.view.readCov ((⟨Rect.unit ![0, 0] S33x512.size Gen.inb_S33x512_S33x512_0_0, w⟩ : View.Piece (Elt F) S33x512 .f32) :: L) r.toLoadRect = View.ld w r :=
    fun w L r => readCov_whole_last _ hz2 _ w L r
  isplitl [H3]
  · iexists _; isplitr; · ipureintro; exact harg5.read_unread _
    iexact H3
  iexists _; isplitr
  swap; · iexact HS
  ipureintro
  refine (read_writes_whole_last _ _ hz2 _ _ _).trans ?_
  unfold accStep
  sl_unfold_run_names
  simp only [e, View.readAt_eq_ld, harg2.read_unread, harg3.read_unread, harg4.read_unread, harg6.read_unread, View.ld_unit_zero (S := S5000x16) hz2, View.ld_unit_zero (S := S5000x512) hz2, View.ld_unit_zero (S := S33x512) hz2]

theorem runA (c : Dev nD) (i : grid0.Coords) (arg2 : Memref sig .tc .vmem S5000x16 .f32) (harg2 : arg2.IsWhole) (arg3 : Memref sig .tc .vmem S5000x16 .f32) (harg3 : arg3.IsWhole) (arg4 : Memref sig .tc .vmem S5000x512 .f32) (harg4 : arg4.IsWhole) (arg5 : Memref sig .tc .vmem S16x512 .f32) (harg5 : arg5.IsWhole) (arg6 : Memref sig .tc .vmem S33x512 .f32) (harg6 : arg6.IsWhole)
    (hc1 : cond1 i) (hc2 : ¬cond2 i)
    (x0 x1 : Vec F S5000x16 .f32) (x2 : Vec F S5000x512 .f32) (x3 : Vec F S16x512 .f32) (xs : Vec F S33x512 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (x3) ∗ owns (c : Thread nD τ) arg6 fullShare (accStep x0 x1 x2 k0_pay3)) -∗ K ⟨⟩))
      ⊢ wp frame (wpE (defs₀ (F := F)) Variants.none c none) E (cc0__v2e_kernel i arg2 harg2 arg3 harg3 arg4 harg4 arg5 harg5 arg6 harg6) K := by
  simp only [cc0__v2e_kernel_eq_skeleton]; unfold cc0__v2e_kernel_skel
  simp only [k0_part1_eq_skeleton]
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  have e : ∀ (w : Vec F S33x512 .f32) (L : List (View.Piece (Elt F) S33x512 .f32)) (r : Rect S33x512), arg6.view.readCov ((⟨Rect.unit ![0, 0] S33x512.size Gen.inb_S33x512_S33x512_0_0, w⟩ : View.Piece (Elt F) S33x512 .f32) :: L) r.toLoadRect = View.ld w r :=
    fun w L r => readCov_whole_last _ hz2 _ w L r
  isplitl [H3]
  · iexists _; isplitr; · ipureintro; exact harg5.read_unread _
    iexact H3
  iexists _; isplitr
  swap; · iexact HS
  ipureintro
  refine (read_writes_whole_last _ _ hz2 _ _ _).trans ?_
  unfold accStep
  sl_unfold_run_names
  simp only [e, View.readAt_eq_ld, harg2.read_unread, harg3.read_unread, harg4.read_unread, harg6.read_unread, View.ld_unit_zero (S := S5000x16) hz2, View.ld_unit_zero (S := S5000x512) hz2, View.ld_unit_zero (S := S33x512) hz2]

theorem runC (c : Dev nD) (i : grid0.Coords) (arg2 : Memref sig .tc .vmem S5000x16 .f32) (harg2 : arg2.IsWhole) (arg3 : Memref sig .tc .vmem S5000x16 .f32) (harg3 : arg3.IsWhole) (arg4 : Memref sig .tc .vmem S5000x512 .f32) (harg4 : arg4.IsWhole) (arg5 : Memref sig .tc .vmem S16x512 .f32) (harg5 : arg5.IsWhole) (arg6 : Memref sig .tc .vmem S33x512 .f32) (harg6 : arg6.IsWhole)
    (hc1 : ¬cond1 i) (hc2 : cond2 i)
    (x0 x1 : Vec F S5000x16 .f32) (x2 : Vec F S5000x512 .f32) (x3 : Vec F S16x512 .f32) (xs : Vec F S33x512 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (finish (accStep x0 x1 x2 xs)) ∗ owns (c : Thread nD τ) arg6 fullShare (accStep x0 x1 x2 xs)) -∗ K ⟨⟩))
      ⊢ wp frame (wpE (defs₀ (F := F)) Variants.none c none) E (cc0__v2e_kernel i arg2 harg2 arg3 harg3 arg4 harg4 arg5 harg5 arg6 harg6) K := by
  simp only [cc0__v2e_kernel_eq_skeleton]; unfold cc0__v2e_kernel_skel
  simp only [k0_part1_eq_skeleton]
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  have e : ∀ (w : Vec F S33x512 .f32) (L : List (View.Piece (Elt F) S33x512 .f32)) (r : Rect S33x512), arg6.view.readCov ((⟨Rect.unit ![0, 0] S33x512.size Gen.inb_S33x512_S33x512_0_0, w⟩ : View.Piece (Elt F) S33x512 .f32) :: L) r.toLoadRect = View.ld w r :=
    fun w L r => readCov_whole_last _ hz2 _ w L r
  isplitl [H3]
  · iexists _; isplitr
    swap; · iexact H3
    ipureintro
    refine (read_writes_whole_last _ _ hz2 _ _ _).trans ?_
    unfold finish accStep
    sl_unfold_run_names
    simp only [e, View.readAt_eq_ld, harg2.read_unread, harg3.read_unread, harg4.read_unread, harg6.read_unread, View.ld_unit_zero (S := S5000x16) hz2, View.ld_unit_zero (S := S5000x512) hz2, View.ld_unit_zero (S := S33x512) hz2]
  iexists _; isplitr
  swap; · iexact HS
  ipureintro
  sl_unfold_run_names
  refine (read_writes_whole_last _ _ hz2 _ _ _).trans ?_
  unfold accStep
  sl_unfold_run_names
  simp only [e, View.readAt_eq_ld, harg2.read_unread, harg3.read_unread, harg4.read_unread, harg6.read_unread, View.ld_unit_zero (S := S5000x16) hz2, View.ld_unit_zero (S := S5000x512) hz2, View.ld_unit_zero (S := S33x512) hz2]

theorem runD (c : Dev nD) (i : grid0.Coords) (arg2 : Memref sig .tc .vmem S5000x16 .f32) (harg2 : arg2.IsWhole) (arg3 : Memref sig .tc .vmem S5000x16 .f32) (harg3 : arg3.IsWhole) (arg4 : Memref sig .tc .vmem S5000x512 .f32) (harg4 : arg4.IsWhole) (arg5 : Memref sig .tc .vmem S16x512 .f32) (harg5 : arg5.IsWhole) (arg6 : Memref sig .tc .vmem S33x512 .f32) (harg6 : arg6.IsWhole)
    (hc1 : cond1 i) (hc2 : cond2 i)
    (x0 x1 : Vec F S5000x16 .f32) (x2 : Vec F S5000x512 .f32) (x3 : Vec F S16x512 .f32) (xs : Vec F S33x512 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (finish (accStep x0 x1 x2 k0_pay3)) ∗ owns (c : Thread nD τ) arg6 fullShare (accStep x0 x1 x2 k0_pay3)) -∗ K ⟨⟩))
      ⊢ wp frame (wpE (defs₀ (F := F)) Variants.none c none) E (cc0__v2e_kernel i arg2 harg2 arg3 harg3 arg4 harg4 arg5 harg5 arg6 harg6) K := by
  simp only [cc0__v2e_kernel_eq_skeleton]; unfold cc0__v2e_kernel_skel
  simp only [k0_part1_eq_skeleton]
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  have e : ∀ (w : Vec F S33x512 .f32) (L : List (View.Piece (Elt F) S33x512 .f32)) (r : Rect S33x512), arg6.view.readCov ((⟨Rect.unit ![0, 0] S33x512.size Gen.inb_S33x512_S33x512_0_0, w⟩ : View.Piece (Elt F) S33x512 .f32) :: L) r.toLoadRect = View.ld w r :=
    fun w L r => readCov_whole_last _ hz2 _ w L r
  isplitl [H3]
  · iexists _; isplitr
    swap; · iexact H3
    ipureintro
    refine (read_writes_whole_last _ _ hz2 _ _ _).trans ?_
    unfold finish accStep
    sl_unfold_run_names
    simp only [e, View.readAt_eq_ld, harg2.read_unread, harg3.read_unread, harg4.read_unread, harg6.read_unread, View.ld_unit_zero (S := S5000x16) hz2, View.ld_unit_zero (S := S5000x512) hz2, View.ld_unit_zero (S := S33x512) hz2]
  iexists _; isplitr
  swap; · iexact HS
  ipureintro
  sl_unfold_run_names
  refine (read_writes_whole_last _ _ hz2 _ _ _).trans ?_
  unfold accStep
  sl_unfold_run_names
  simp only [e, View.readAt_eq_ld, harg2.read_unread, harg3.read_unread, harg4.read_unread, harg6.read_unread, View.ld_unit_zero (S := S5000x16) hz2, View.ld_unit_zero (S := S5000x512) hz2, View.ld_unit_zero (S := S33x512) hz2]

/-- The accumulator as the addition finds it: zeroed at a first block, else as the point before left it. -/
def accIn (i : grid0.Coords) (xs : Vec F S33x512 .f32) : Vec F S33x512 .f32 :=
  haveI : Decidable (cond1 i) := inferInstanceAs (Decidable (_ = _)); if cond1 i then k0_pay3 else xs

/-- The output buffer after the point: the finished block at a last block of the reduction axis, else untouched. -/
def outAfter (i : grid0.Coords) (x3 : Vec F S16x512 .f32) (X : Vec F S33x512 .f32) : Vec F S16x512 .f32 :=
  haveI : Decidable (cond2 i) := inferInstanceAs (Decidable (_ = _)); if cond2 i then finish X else x3

/-- The step at any point: the inputs kept, the accumulator advanced from `accIn`, the output as `outAfter`. -/
theorem run_point (c : Dev nD) (i : grid0.Coords) (arg2 : Memref sig .tc .vmem S5000x16 .f32) (harg2 : arg2.IsWhole) (arg3 : Memref sig .tc .vmem S5000x16 .f32) (harg3 : arg3.IsWhole) (arg4 : Memref sig .tc .vmem S5000x512 .f32) (harg4 : arg4.IsWhole) (arg5 : Memref sig .tc .vmem S16x512 .f32) (harg5 : arg5.IsWhole) (arg6 : Memref sig .tc .vmem S33x512 .f32) (harg6 : arg6.IsWhole)
    (x0 x1 : Vec F S5000x16 .f32) (x2 : Vec F S5000x512 .f32) (x3 : Vec F S16x512 .f32) (xs : Vec F S33x512 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (outAfter i x3 (accStep x0 x1 x2 (accIn i xs))) ∗ owns (c : Thread nD τ) arg6 fullShare (accStep x0 x1 x2 (accIn i xs))) -∗ K ⟨⟩))
      ⊢ wp frame (wpE (defs₀ (F := F)) Variants.none c none) E (cc0__v2e_kernel i arg2 harg2 arg3 harg3 arg4 harg4 arg5 harg5 arg6 harg6) K := by
  unfold accIn outAfter
  by_cases hc1 : cond1 i <;> by_cases hc2 : cond2 i
  · rw [if_pos hc1, if_pos hc2]; exact runD c i arg2 harg2 arg3 harg3 arg4 harg4 arg5 harg5 arg6 harg6 hc1 hc2 x0 x1 x2 x3 xs E K
  · rw [if_pos hc1, if_neg hc2]; exact runA c i arg2 harg2 arg3 harg3 arg4 harg4 arg5 harg5 arg6 harg6 hc1 hc2 x0 x1 x2 x3 xs E K
  · rw [if_neg hc1, if_pos hc2]; exact runC c i arg2 harg2 arg3 harg3 arg4 harg4 arg5 harg5 arg6 harg6 hc1 hc2 x0 x1 x2 x3 xs E K
  · rw [if_neg hc1, if_neg hc2]; exact runB c i arg2 harg2 arg3 harg3 arg4 harg4 arg5 harg5 arg6 harg6 hc1 hc2 x0 x1 x2 x3 xs E K

end Cert.KernelIdeal.Body

end
-- ==== Proof.FrameI.lean ====
/-
  The kernel's hundred grid points in order: what each buffer holds before and after each point.

  The grid is 10 column tiles of the incidence matrix by 10 row blocks, the row block moving fastest. The two score
  blocks and the incidence block are fetched at every point; the output block is written back at the last row block
  of each column tile. The last column tile overhangs the matrix (10 · 512 > 5000): what a fetch leaves in the
  incidence buffer past the matrix's last column is not named, so the accumulator is tracked by a PREDICATE `G` on
  its contents rather than by a formula, and the output block is stated on the columns inside the matrix only.
  Everything here holds at any float instance; `G` and the output blocks `out3` are parameters.
-/
import proofs.«107464_j57612691309114_2_alg».proof.Proof.StepI
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditionals and the idle points, over the grid -/

theorem hcond1 : ∀ t : Fin cfg0.N, cond1 (grid0.coords t) ↔ t.val % 10 = 0 :=
  (by decide +kernel : ∀ t : Fin grid0.N, cond1 (grid0.coords t) ↔ t.val % 10 = 0)
theorem hcond2 : ∀ t : Fin cfg0.N, cond2 (grid0.coords t) ↔ t.val % 10 = 9 :=
  (by decide +kernel : ∀ t : Fin grid0.N, cond2 (grid0.coords t) ↔ t.val % 10 = 9)
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem idle3 : ∀ t : Fin cfg0.N, ¬cond2 (grid0.coords t) → cfg0.idle 3 (grid0.coords t) = true := by decide +kernel
theorem live3 : ∀ t : Fin cfg0.N, cond2 (grid0.coords t) → cfg0.idle 3 (grid0.coords t) = false := by decide +kernel
theorem noFlush3 : ∀ t : Fin cfg0.N, ¬cond2 (grid0.coords t) → (cfg0.win 3).flush t = false := by decide +kernel
theorem loose0 : cfg0.loose 0 = false := rfl
theorem loose1 : cfg0.loose 1 = false := rfl
theorem loose2 : cfg0.loose 2 = true := rfl
theorem loose3 : cfg0.loose 3 = true := rfl

/-! ## The buffers a point runs on -/

abbrev ms0 (t : Fin cfg0.N) : Memref sig .tc .vmem S5000x16 .f32 := win0_0.stage (cfg0.slots t 0)
abbrev hs0 (t : Fin cfg0.N) : (ms0 t).IsWhole := Gen.hstage0_0 ((cfg0.slots t 0).cast Gen.nbuf0_0)
abbrev ms1 (t : Fin cfg0.N) : Memref sig .tc .vmem S5000x16 .f32 := win0_1.stage (cfg0.slots t 1)
abbrev hs1 (t : Fin cfg0.N) : (ms1 t).IsWhole := Gen.hstage0_1 ((cfg0.slots t 1).cast Gen.nbuf0_1)
abbrev ms2 (t : Fin cfg0.N) : Memref sig .tc .vmem S5000x512 .f32 := win0_2.stage (cfg0.slots t 2)
abbrev hs2 (t : Fin cfg0.N) : (ms2 t).IsWhole := Gen.hstage0_2 ((cfg0.slots t 2).cast Gen.nbuf0_2)
abbrev ms3 (t : Fin cfg0.N) : Memref sig .tc .vmem S16x512 .f32 := win0_3.stage (cfg0.slots t 3)
abbrev hs3 (t : Fin cfg0.N) : (ms3 t).IsWhole := Gen.hstage0_3 ((cfg0.slots t 3).cast Gen.nbuf0_3)
/-- The accumulator: a buffer of the kernel's own, kept between points. -/
abbrev scM : Memref sig .tc .vmem S33x512 .f32 := Memref.whole cc0_scratch0

/-- What the region is entered with beside the windows: the accumulator at some contents, the generator at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The incidence block of point `t` as a fetch leaves it in its buffer: inside the matrix the matrix's entries, past
    its last column what `d` holds there. -/
def hblk (c : Dev nD) (t : Fin cfg0.N) (d : Vec F S5000x512 .f32) : Vec F S5000x512 .f32 :=
  win0_2.fill (grid0.coords t) d (iblk m c 2 t)

variable (G : Dev nD → ℕ → Vec F S33x512 .f32 → Prop) (out3 : Dev nD → Fin cfg0.N → Vec F S16x512 .f32)

/-- What is kept beside the windows before position `n`: at first what the region was entered with; after point
    `n - 1` the accumulator at contents of which `G (n - 1)` holds, the generator at some state. -/
def PhiS (c : Dev nD) : (n : ℕ) → n ≤ cfg0.N → sProp 𝕄
  | 0, _ => Pipeline.ΦA spec0 c
  | n + 1, _ => iprop(iprop(∃ X, ⌜G c n X⌝ ∗ owns (c : Thread nD τ) scM fullShare X) ∗ (∃ r, prngReg c r))

theorem PhiS_zero (c : Dev nD) (n : ℕ) (h : n ≤ cfg0.N) (hz : n = 0) : PhiS G c n h = Pipeline.ΦA spec0 c := by
  subst hz; rfl
theorem PhiS_succ (c : Dev nD) (n : ℕ) (hn : n < cfg0.N) :
    PhiS G c (n + 1) hn = iprop(iprop(∃ X, ⌜G c n X⌝ ∗ owns (c : Thread nD τ) scM fullShare X) ∗ (∃ r, prngReg c r)) := rfl
theorem PhiS_pos (c : Dev nD) (n : ℕ) (h : n ≤ cfg0.N) (hz : n ≠ 0) :
    PhiS G c n h = iprop(iprop(∃ X, ⌜G c (n - 1) X⌝ ∗ owns (c : Thread nD τ) scM fullShare X) ∗ (∃ r, prngReg c r)) := by
  cases n with
  | zero => exact absurd rfl hz
  | succ n => rfl

/-- The pipeline's data on core `c`: the arrays as the region finds them; after a point the score buffers at their
    blocks, the incidence buffer at its block (filled out with zeros past the matrix), the output buffer at `out3`;
    beside the windows `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => hblk m c t (fun _ => Scalar.ofBits .f32 0#32)
    | ⟨3, _⟩ => out3 c t
  Φ t := PhiS G c t.val (Nat.le_of_lt_succ t.isLt)
  q _ := fullShare
  owed _ := 0

theorem A_eq (c : Dev nD) (w : Fin cfg0.W) : (dats m G out3 0 c).A w = V m c (Pipeline.arrRef spec0 w) := by
  dsimp only [dats]
theorem PhiS_castSucc (c : Dev nD) (t : Fin cfg0.N) :
    (dats m G out3 0 c).Φ t.castSucc = PhiS G c t.val (Nat.le_of_lt t.isLt) := by
  dsimp only [dats]; simp only [Fin.coe_castSucc]
theorem after0 (c : Dev nD) (t : Fin cfg0.N) : (dats m G out3 0 c).after 0 t = iblk m c 0 t := by dsimp only [dats]
theorem after1 (c : Dev nD) (t : Fin cfg0.N) : (dats m G out3 0 c).after 1 t = iblk m c 1 t := by dsimp only [dats]
theorem after2 (c : Dev nD) (t : Fin cfg0.N) :
    (dats m G out3 0 c).after 2 t = hblk m c t (fun _ => Scalar.ofBits .f32 0#32) := by dsimp only [dats]
theorem after3 (c : Dev nD) (t : Fin cfg0.N) : (dats m G out3 0 c).after 3 t = out3 c t := by dsimp only [dats]

theorem before0 (c : Dev nD) (t : Fin cfg0.N) (d) : (dats m G out3 0 c).before 0 t d = iblk m c 0 t :=
  before0_0_of m (dats m G out3 0 c) (A_eq m G out3 c 0) (after0 m G out3 c) t d
theorem before1 (c : Dev nD) (t : Fin cfg0.N) (d) : (dats m G out3 0 c).before 1 t d = iblk m c 1 t :=
  before0_1_of m (dats m G out3 0 c) (A_eq m G out3 c 1) (after1 m G out3 c) t d
/-- The incidence buffer is fetched at every point. -/
theorem before2 (c : Dev nD) (t : Fin cfg0.N) (d) : (dats m G out3 0 c).before 2 t d = hblk m c t d := by
  unfold Dat.before; rw [if_pos (fetch0_2 t)]
  unfold Dat.fetched Dat.blockOf hblk iblk; rw [A_eq]; try rfl

/-! ## One point, on the pipeline's buffers -/

/-- `G` keeps up with the points: whatever a fetch left past the matrix, the accumulator after point `t` satisfies
    `G t` if (past a first block) the accumulator before it satisfied `G (t - 1)`. -/
def Tracks (c : Dev nD) : Prop :=
  ∀ (t : Fin cfg0.N) (d : Vec F S5000x512 .f32) (Y : Vec F S33x512 .f32), (t.val % 10 ≠ 0 → G c (t.val - 1) Y) →
    G c t.val (accStep (iblk m c 0 t) (iblk m c 1 t) (hblk m c t d) (accIn (grid0.coords t) Y))

/-- At a last block of the reduction axis the finished output block agrees with `out3` on the columns the write-back
    moves, whatever accumulator satisfying `G` it was computed from. -/
def Outs (c : Dev nD) : Prop :=
  ∀ (t : Fin cfg0.N), t.val % 10 = 9 → ∀ X : Vec F S33x512 .f32, G c t.val X →
    (cfg0.win 3).cut (cfg0.grid.coords t) (finish X) = (cfg0.win 3).cut (cfg0.grid.coords t) (out3 c t)

/-- The point's step on the pipeline's buffers, in continuation form: from the kept state before point `t`, the three
    input buffers at their blocks and the output buffer at `x3`, the body runs to the accumulator at some `X` with
    `G t X`, the inputs unchanged, and the output buffer at `outAfter`. -/
theorem point_core (c : Dev nD) (hG : Tracks m G c) (t : Fin cfg0.N) (d2 : Vec F S5000x512 .f32) (x3 : Vec F S16x512 .f32)
    (R : sProp 𝕄) (K : PUnit → sProp 𝕄)
    (hK : ∀ X : Vec F S33x512 .f32, G c t.val X →
      iprop(R ∗ owns (c : Thread nD τ) scM fullShare X ∗ (∃ r, prngReg c r)
        ∗ owns (c : Thread nD τ) (ms0 t) fullShare (iblk m c 0 t) ∗ owns (c : Thread nD τ) (ms1 t) fullShare (iblk m c 1 t)
        ∗ owns (c : Thread nD τ) (ms2 t) fullShare (hblk m c t d2)
        ∗ owns (c : Thread nD τ) (ms3 t) fullShare (outAfter (grid0.coords t) x3 X)) ⊢ K ⟨⟩) :
    iprop(R ∗ PhiS G c t.val (Nat.le_of_lt t.isLt)
        ∗ owns (c : Thread nD τ) (ms0 t) fullShare (iblk m c 0 t) ∗ owns (c : Thread nD τ) (ms1 t) fullShare (iblk m c 1 t)
        ∗ owns (c : Thread nD τ) (ms2 t) fullShare (hblk m c t d2) ∗ owns (c : Thread nD τ) (ms3 t) fullShare x3)
      ⊢ wp frame (wpE (defs₀ (F := F)) Variants.none c none) Set.univ (bodyAt0 t) K := by
  unfold bodyAt0
  by_cases hz : t.val = 0
  · rw [PhiS_zero G c _ _ hz, PhiA_eq]
    iintro ⟨HR, ⟨⟨%xs, HS⟩, Hg⟩, H0, H1, H2, H3⟩
    iapply (run_point c (grid0.coords t) (ms0 t) (hs0 t) (ms1 t) (hs1 t) (ms2 t) (hs2 t) (ms3 t) (hs3 t) scM (Memref.isWhole_whole _)
      (iblk m c 0 t) (iblk m c 1 t) (hblk m c t d2) x3 xs Set.univ K)
    isplitl [H0]; · iexact H0
    isplitl [H1]; · iexact H1
    isplitl [H2]; · iexact H2
    isplitl [H3]; · iexact H3
    isplitl [HS]; · iexact HS
    iintro ⟨H0, H1, H2, H3, HS⟩
    iapply (hK _ (hG t d2 xs (fun h => absurd (by rw [hz]) h)))
    isplitl [HR]; · iexact HR
    isplitl [HS]; · iexact HS
    isplitl [Hg]; · iexact Hg
    isplitl [H0]; · iexact H0
    isplitl [H1]; · iexact H1
    isplitl [H2]; · iexact H2
    iexact H3
  · rw [PhiS_pos G c _ _ hz]
    iintro ⟨HR, ⟨⟨%xs, %hxs, HS⟩, Hg⟩, H0, H1, H2, H3⟩
    iapply (run_point c (grid0.coords t) (ms0 t) (hs0 t) (ms1 t) (hs1 t) (ms2 t) (hs2 t) (ms3 t) (hs3 t) scM (Memref.isWhole_whole _)
      (iblk m c 0 t) (iblk m c 1 t) (hblk m c t d2) x3 xs Set.univ K)
    isplitl [H0]; · iexact H0
    isplitl [H1]; · iexact H1
    isplitl [H2]; · iexact H2
    isplitl [H3]; · iexact H3
    isplitl [HS]; · iexact HS
    iintro ⟨H0, H1, H2, H3, HS⟩
    iapply (hK _ (hG t d2 xs (fun _ => hxs)))
    isplitl [HR]; · iexact HR
    isplitl [HS]; · iexact HS
    isplitl [Hg]; · iexact Hg
    isplitl [H0]; · iexact H0
    isplitl [H1]; · iexact H1
    isplitl [H2]; · iexact H2
    iexact H3

/-! ## The body obligation, every buffer named -/

def bodyPre (c : Dev nD) (t : Fin cfg0.N) : sProp 𝕄 :=
  iprop((dats m G out3 0 c).Φ t.castSucc ∗ (dats m G out3 0 c).owesAt () t.castSucc
    ∗ (∃ d, owns (c : Thread nD τ) (ms0 t) fullShare ((dats m G out3 0 c).before 0 t d))
    ∗ (∃ d, owns (c : Thread nD τ) (ms1 t) fullShare ((dats m G out3 0 c).before 1 t d))
    ∗ (∃ d, owns (c : Thread nD τ) (ms2 t) fullShare ((dats m G out3 0 c).before 2 t d))
    ∗ (∃ d, owns (c : Thread nD τ) (ms3 t) fullShare ((dats m G out3 0 c).before 3 t d)))

def bodyPost (c : Dev nD) (t : Fin cfg0.N) : sProp 𝕄 :=
  iprop((dats m G out3 0 c).Φ t.succ ∗ (dats m G out3 0 c).owesAt () t.succ
    ∗ (dats m G out3 0 c).leaves 0 t ∗ (dats m G out3 0 c).leaves 1 t ∗ (dats m G out3 0 c).leaves 2 t ∗ (dats m G out3 0 c).leaves 3 t)

theorem leaves0 (c : Dev nD) (t : Fin cfg0.N) :
    (dats m G out3 0 c).leaves 0 t = owns (c : Thread nD τ) (ms0 t) fullShare (iblk m c 0 t) := by
  unfold Dat.leaves; rw [live0 t, loose0, after0]
theorem leaves1 (c : Dev nD) (t : Fin cfg0.N) :
    (dats m G out3 0 c).leaves 1 t = owns (c : Thread nD τ) (ms1 t) fullShare (iblk m c 1 t) := by
  unfold Dat.leaves; rw [live1 t, loose1, after1]
theorem leaves2 (c : Dev nD) (t : Fin cfg0.N) :
    (dats m G out3 0 c).leaves 2 t = iprop(∃ d, owns (c : Thread nD τ) (ms2 t) fullShare (hblk m c t d)) := by
  unfold Dat.leaves; rw [live2 t, loose2, after2]
  exact congrArg (fun g => iprop(∃ d, owns (c : Thread nD τ) (ms2 t) fullShare ((cfg0.win 2).fill (cfg0.grid.coords t) d g)))
    ((cfg0.win 2).cut_fill (cfg0.grid.coords t) (fun _ => Scalar.ofBits .f32 0#32) (iblk m c 2 t))

/-- The output window where the body stores nothing: handed back as found. -/
theorem leaves3_idle (c : Dev nD) (t : Fin cfg0.N) (h2 : ¬cond2 (grid0.coords t)) :
    (dats m G out3 0 c).leaves 3 t = iprop(∃ d, owns (c : Thread nD τ) (ms3 t) fullShare ((dats m G out3 0 c).before 3 t d)) :=
  Dat.leaves_idle (dats m G out3 0 c) 3 t (idle3 t h2) (noFlush3 t h2)
/-- The output window at a last block: stated on the columns the write-back moves. -/
theorem leaves3_live (c : Dev nD) (t : Fin cfg0.N) (h2 : cond2 (grid0.coords t)) :
    (dats m G out3 0 c).leaves 3 t = iprop(∃ d, owns (c : Thread nD τ) (ms3 t) fullShare ((cfg0.win 3).fill (cfg0.grid.coords t) d
      ((cfg0.win 3).cut (cfg0.grid.coords t) (out3 c t)))) := by
  unfold Dat.leaves; rw [live3 t h2, loose3, after3]
  rfl

set_option maxHeartbeats 1600000 in
theorem sound_body (c : Dev nD) (hG : Tracks m G c) (hO : Outs G out3 c) (t : Fin cfg0.N) :
    bodyPre m G out3 c t ⊢ wp frame (wpE (defs₀ (F := F)) Variants.none c none) Set.univ (bodyAt0 t) (fun _ => bodyPost m G out3 c t) := by
  unfold bodyPre bodyPost
  simp only [before0, before1, before2]
  rw [show (dats m G out3 0 c).owesAt () t.succ = (dats m G out3 0 c).owesAt () t.castSucc from rfl,
    show (dats m G out3 0 c).Φ t.succ = PhiS G c (t.val + 1) t.isLt from rfl, PhiS_succ, PhiS_castSucc,
    leaves0, leaves1, leaves2]
  iintro ⟨HΦ, Ho, ⟨%d0, H0⟩, ⟨%d1, H1⟩, ⟨%d2, H2⟩, ⟨%d3, H3⟩⟩
  iapply (point_core m G c hG t d2 ((dats m G out3 0 c).before 3 t d3) ((dats m G out3 0 c).owesAt () t.castSucc) _ ?hK)
  case hK =>
    intro X hX
    iintro ⟨Ho, HS, Hg, H0, H1, H2, H3⟩
    isplitl [HS Hg]
    · isplitl [HS]
      · iexists X; isplitr; · ipureintro; exact hX
        iexact HS
      iexact Hg
    isplitl [Ho]; · iexact Ho
    isplitl [H0]; · iexact H0
    isplitl [H1]; · iexact H1
    isplitl [H2]; · iexists d2; iexact H2
    by_cases h2 : cond2 (grid0.coords t)
    · rw [leaves3_live m G out3 c t h2]
      iexists (finish X)
      rw [← hO t ((hcond2 t).mp h2) X hX, (cfg0.win 3).fill_cut]
      unfold outAfter; rw [if_pos h2]
      iexact H3
    · rw [leaves3_idle m G out3 c t h2]
      iexists d3
      unfold outAfter; rw [if_neg h2]
      iexact H3
  isplitl [Ho]; · iexact Ho
  isplitl [HΦ]; · iexact HΦ
  isplitl [H0]; · iexact H0
  isplitl [H1]; · iexact H1
  isplitl [H2]; · iexact H2
  iexact H3

/-- The library's body obligation, every window named. -/
theorem body_obligation (c : Dev nD) (hG : Tracks m G c) (hO : Outs G out3 c) :
    BodyObligationLoose (dats (F := F) m G out3 0 c) (defs₀ (F := F)) Variants.none () Set.univ := fun t => by
  rw [bigSep_W0, bigSep_W0]
  exact sound_body m G out3 c hG hO t

/-! ## The body obligation with the output window forgotten

For a claim that does not read the result (that the arguments end unchanged), nothing need be said of what the body
leaves in the output window: it is handed over at any contents and taken back at any. -/

/-- The one window forgotten: the output's. -/
def forgets3 : Fin 4 → Bool := fun w => w.val == 3

def bodyPreF (c : Dev nD) (t : Fin cfg0.N) : sProp 𝕄 :=
  iprop((dats m G out3 0 c).Φ t.castSucc ∗ (dats m G out3 0 c).owesAt () t.castSucc
    ∗ (∃ d, owns (c : Thread nD τ) (ms0 t) fullShare ((dats m G out3 0 c).before 0 t d))
    ∗ (∃ d, owns (c : Thread nD τ) (ms1 t) fullShare ((dats m G out3 0 c).before 1 t d))
    ∗ (∃ d, owns (c : Thread nD τ) (ms2 t) fullShare ((dats m G out3 0 c).before 2 t d))
    ∗ (∃ X, owns (c : Thread nD τ) (ms3 t) fullShare X))

def bodyPostF (c : Dev nD) (t : Fin cfg0.N) : sProp 𝕄 :=
  iprop((dats m G out3 0 c).Φ t.succ ∗ (dats m G out3 0 c).owesAt () t.succ
    ∗ (dats m G out3 0 c).leaves 0 t ∗ (dats m G out3 0 c).leaves 1 t ∗ (dats m G out3 0 c).leaves 2 t ∗ (∃ X, owns (c : Thread nD τ) (ms3 t) fullShare X))

set_option maxHeartbeats 1600000 in
theorem sound_bodyF (c : Dev nD) (hG : Tracks m G c) (t : Fin cfg0.N) :
    bodyPreF m G out3 c t ⊢ wp frame (wpE (defs₀ (F := F)) Variants.none c none) Set.univ (bodyAt0 t) (fun _ => bodyPostF m G out3 c t) := by
  unfold bodyPreF bodyPostF
  simp only [before0, before1, before2]
  rw [show (dats m G out3 0 c).owesAt () t.succ = (dats m G out3 0 c).owesAt () t.castSucc from rfl,
    show (dats m G out3 0 c).Φ t.succ = PhiS G c (t.val + 1) t.isLt from rfl, PhiS_succ, PhiS_castSucc,
    leaves0, leaves1, leaves2]
  iintro ⟨HΦ, Ho, ⟨%d0, H0⟩, ⟨%d1, H1⟩, ⟨%d2, H2⟩, ⟨%x3, H3⟩⟩
  iapply (point_core m G c hG t d2 x3 ((dats m G out3 0 c).owesAt () t.castSucc) _ ?hK)
  case hK =>
    intro X hX
    iintro ⟨Ho, HS, Hg, H0, H1, H2, H3⟩
    isplitl [HS Hg]
    · isplitl [HS]
      · iexists X; isplitr; · ipureintro; exact hX
        iexact HS
      iexact Hg
    isplitl [Ho]; · iexact Ho
    isplitl [H0]; · iexact H0
    isplitl [H1]; · iexact H1
    isplitl [H2]; · iexists d2; iexact H2
    iexists _; iexact H3
  isplitl [Ho]; · iexact Ho
  isplitl [HΦ]; · iexact HΦ
  isplitl [H0]; · iexact H0
  isplitl [H1]; · iexact H1
  isplitl [H2]; · iexact H2
  iexact H3

theorem body_obligationF (c : Dev nD) (hG : Tracks m G c) :
    BodyObligationLoose (dats (F := F) m G out3 0 c) (defs₀ (F := F)) Variants.none () Set.univ forgets3 := fun t => by
  rw [bigSep_W0, bigSep_W0]
  exact sound_bodyF m G out3 c hG t

/-! ## Entering and leaving the region -/

theorem hin (c : Dev nD) : Pipeline.ΦA spec0 c ⊢ (dats m G out3 0 c).Φ 0 := by
  rw [show (dats m G out3 0 c).Φ 0 = PhiS G c 0 (Nat.zero_le _) from rfl, PhiS_zero G c 0 _ rfl]
  try exact Idealize.SL.BI.Entails.refl _

theorem hout (c : Dev nD) : (dats m G out3 0 c).Φ (Fin.last cfg0.N) ⊢ Pipeline.ΦA spec0 c := by
  rw [show (dats m G out3 0 c).Φ (Fin.last cfg0.N) = PhiS G c (Fin.last cfg0.N).val (Nat.le_of_lt_succ (Fin.last cfg0.N).isLt) from rfl,
    PhiS_pos G c _ _ (by rw [Fin.val_last]; have : cfg0.N = 100 := N_0; omega), PhiA_eq]
  iintro ⟨⟨%X, %hX, HS⟩, Hg⟩
  isplitl [HS]
  · iexists _; iexact HS
  iexact Hg

/-! ## The runs -/

set_option backward.isDefEq.respectTransparency.types false in
/-- Every weakly fair execution of @main terminates without a fault; every array of the call ends at what the write-backs
    of `out3` make of it, every other buffer at what the host lines after the call compute. -/
theorem run_main (hG : ∀ c, Tracks m G c) (hO : ∀ c, Outs G out3 c) :
    θ_run defs (onTc (τ := τ) (main (F := F))) (s₀ m ρ)
      (Pipeline.FramePost cfgs (dats m G out3) 0 (Pipeline.afterTail₀ cfgs (dats m G out3) 0 (V0 m) [hostOps1])) :=
  Pipeline.θ_run_frame_around_track cfgs (dats m G out3) (0 : Fin 1) launch0 defs₀ Variants.none m ρ main
    (hbody := fun c => body_obligation m G out3 c (hG c) (hO c)) (hshare := fun c => (dats m G out3 0 c).share_full fun _ => rfl)
    (howed := fun _ _ => rfl) (V₀ := V0 m) (opss := [hostOps1]) (hsub := sfx_sub) (hfresh := sfx_fresh) (hkeep := sfx_keeps)
    (hmain := hmain m Variants.none) (hA := A_eq m G out3) (hin := hin m G out3) (hout := hout m G out3)

/-- The buffers the host lines after the call may write: any but the mask argument. -/
def tailWrites : Finset (Ref sig .tc) := Finset.univ.erase main_arg3

theorem tail_writes : ∀ ops ∈ ([hostOps1] : List (List (HloOp τ sig (Elt F)))), ∀ op ∈ ops,
    ∀ b : Ref sig .tc, Proc.devRef .tc b ∈ op.writes → b ∈ tailWrites := by
  intro ops hops op hop b hb
  refine Finset.mem_erase.mpr ⟨fun e => ?_, Finset.mem_univ _⟩
  subst e
  revert hb
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl
  all_goals simp only [StableHlo.nullary_writes, StableHlo.unary_writes, StableHlo.binary_writes, Finset.mem_singleton] <;> exact StableHlo.devRef_ne_of_ne (by decide)

set_option backward.isDefEq.respectTransparency.types false in
/-- The same run with the output window forgotten: the input arrays end as they were entered, and every buffer the
    host lines do not write ends as the region found it. -/
theorem run_mainF (hG : ∀ c, Tracks m G c) :
    θ_run defs (onTc (τ := τ) (main (F := F))) (s₀ m ρ)
      (Pipeline.RDat.FramePostR (cfgs 0) (fun c => (dats m G out3 0 c).toRForget forgets3) tailWrites (fun c b => V0 m c (Proc.devRef .tc b))) :=
  Pipeline.RDat.θ_run_frame_around_T_track cfgs (0 : Fin 1) launch0 defs₀ Variants.none (fun c => (dats m G out3 0 c).toRForget forgets3) tailWrites m ρ main
    (hbody := fun c => (body_obligationF m G out3 c (hG c)).toRForget)
    (hshare := fun c => ((dats m G out3 0 c).toRForget forgets3).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m G out3) (hin := hin m G out3) (hout := hout m G out3)

/-- The arguments end unchanged. -/
theorem frame (hG : ∀ c, Tracks m G c) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨?_, ?_, ?_, ?_⟩) (run_mainF m ρ G (fun _ _ _ => Scalar.ofBits .f32 0#32) hG)
  · have h0 := (h c).1 0
    rw [Pipeline.RDat.ArrAt_in _ 0 rfl] at h0
    exact h0.trans (V_main_arg0 m c)
  · have h0 := (h c).1 1
    rw [Pipeline.RDat.ArrAt_in _ 1 rfl] at h0
    exact h0.trans (V_main_arg1 m c)
  · have h0 := (h c).1 2
    rw [Pipeline.RDat.ArrAt_in _ 2 rfl] at h0
    exact h0.trans (V_main_arg2 m c)
  · exact ((h c).2 main_arg3 (Finset.mem_sdiff.mpr ⟨Pipeline.mem_restRefs_of main_arg3 (by decide) (by decide),
      by unfold tailWrites; simp⟩)).trans (V_main_arg3 m c)

end Cert.KernelIdeal.Body

end
-- ==== Proof.EdgeKl.lean ====
/-
  The number both programs compute, as one function of the four argument arrays, on the extended reals.

  For vertex scores `s, t : 50000 × 16` and an incidence matrix `h : 50000 × 5000`:
  each row of `s` (of `t`) is turned into weights by the softmax `soft`: the row's maximum (taken from −∞, and once
  more against −∞) is subtracted, the exponentials are divided by their sum;
  for an edge `e` and a class `c` the weights of the edge's vertices are added up, `edgeSum = Σ_v h(v,e) · soft(v,c)`,
  and divided by the edge's degree `deg = Σ_v h(v,e)`; that mean is divided by the temperature 1/2, the small constant ε
  is added and the logarithm taken (`logMean`); the divergence term of the edge and class is
  `kl = exp(logMean t) · (logMean t − logMean s)`; the terms are weighted by the edge's mask weight `w e`, added over
  all edges and classes, and divided by the number of selected edges, at least one (`nSel`).
-/
import Idealize.ShloMosaic.PureOps.Ideal
import Idealize.ShloMosaic.Lib.ValueIdx

noncomputable section

open scoped BigOperators

namespace Cert.EdgeKl

open Idealize.ShloMosaic Idealize.ShloMosaic.ValueIdx

/-- The scores' shape, the incidence matrix's, the mask's. -/
abbrev SP : Shape := ⟨2, ![50000, 16]⟩
abbrev SH : Shape := ⟨2, ![50000, 5000]⟩
abbrev SM : Shape := ⟨1, ![5000]⟩

/-- The float words the programs spell: −∞, 1, 1/2 and ε, read on the extended reals. -/
def negInf : EReal := Ideal.ofBits .f32 0xFF800000#32
def one : EReal := Ideal.ofBits .f32 0x3F800000#32
def half : EReal := Ideal.ofBits .f32 0x3F000000#32
def eps : EReal := Ideal.ofBits .f32 0x322BCC77#32

/-- The maximum of row `v`, folded from −∞ and taken once more against −∞. -/
def rowMax (x : SP.Idx → EReal) (v : Fin 50000) : EReal :=
  max negInf ((Finset.univ : Finset (Fin 16)).fold max negInf (fun j => x (ix2 v j)))

/-- Entry `c` of the softmax of row `v`. -/
def soft (x : SP.Idx → EReal) (v : Fin 50000) (c : Fin 16) : EReal :=
  Ideal.div (Ideal.exp (x (ix2 v c) - rowMax x v)) (∑ j : Fin 16, Ideal.exp (x (ix2 v j) - rowMax x v))

/-- The degree of edge `e`: the sum of its column of the incidence matrix. -/
def deg (h : SH.Idx → EReal) (e : Fin 5000) : EReal := ∑ v : Fin 50000, h (ix2 v e)

/-- The softmax weights of class `c` added over the vertices of edge `e`. -/
def edgeSum (x : SP.Idx → EReal) (h : SH.Idx → EReal) (e : Fin 5000) (c : Fin 16) : EReal :=
  ∑ v : Fin 50000, h (ix2 v e) * soft x v c

/-- The logarithm of the edge's mean weight over the temperature, plus ε. -/
def logMean (x : SP.Idx → EReal) (h : SH.Idx → EReal) (e : Fin 5000) (c : Fin 16) : EReal :=
  Ideal.log (Ideal.div (Ideal.div (edgeSum x h e c) (deg h e)) half + eps)

/-- The divergence term of edge `e` and class `c`. -/
def kl (s t : SP.Idx → EReal) (h : SH.Idx → EReal) (e : Fin 5000) (c : Fin 16) : EReal :=
  Ideal.exp (logMean t h e c) * (logMean t h e c - logMean s h e c)

/-- The number of selected edges, at least one. -/
def nSel (w : SM.Idx → EReal) : EReal := max (∑ e : Fin 5000, w (ix1 e)) one

/-- The masked mean of the divergence terms. -/
def total (s t : SP.Idx → EReal) (h : SH.Idx → EReal) (w : SM.Idx → EReal) : EReal :=
  Ideal.div (∑ e : Fin 5000, ∑ c : Fin 16, kl s t h e c * w (ix1 e)) (nSel w)

end Cert.EdgeKl

end
-- ==== Proof.EdgeKlBlocks.lean ====
/-
  The same number taken block by block, as the kernel takes it.

  The 50000 vertices are ten blocks of 5000. For each vertex the kernel forms one row of 33 weights — the softmax of
  its first score row, the softmax of its second, and a one — and for an edge `e` adds, block after block, the
  weights of the edge's vertices times the incidence entries: `accUpTo n e p` is entry `p` of that sum after blocks
  0‥n. After the tenth block entries 0‥15 are the first scores' edge sums, entries 16‥31 the second's, and entry 32
  the edge's degree; `klOf` is the divergence term computed from such a row of 33.
-/
import proofs.«107464_j57612691309114_2_alg».proof.Proof.EdgeKl

noncomputable section

open scoped BigOperators

namespace Cert.EdgeKl

open Idealize.ShloMosaic Idealize.ShloMosaic.ValueIdx

/-- The maximum of a row of sixteen, folded from −∞ and taken once more against −∞. -/
def rmax (row : Fin 16 → EReal) : EReal := max negInf ((Finset.univ : Finset (Fin 16)).fold max negInf row)

/-- Entry `c` of the softmax of a row of sixteen. -/
def rowSoft (row : Fin 16 → EReal) (c : Fin 16) : EReal :=
  Ideal.div (Ideal.exp (row c - rmax row)) (∑ j : Fin 16, Ideal.exp (row j - rmax row))

theorem soft_eq_rowSoft (x : SP.Idx → EReal) (v : Fin 50000) (c : Fin 16) :
    soft x v c = rowSoft (fun j => x (ix2 v j)) c := rfl

/-- Entry `p` of a vertex's weight row: the softmax of `a`, then the softmax of `b`, then a one. -/
def wrow (a b : Fin 16 → EReal) (p : Fin 33) : EReal :=
  if h : p.val < 16 then rowSoft a ⟨p.val, h⟩
  else if h' : p.val < 32 then rowSoft b ⟨p.val - 16, by omega⟩
  else one

/-- Vertex `k` of block `b`. -/
def vtx (b : Fin 10) (k : Fin 5000) : Fin 50000 := ⟨b.val * 5000 + k.val, by have := b.isLt; have := k.isLt; omega⟩

/-- Block `b`'s contribution to entry `p` of edge `e`'s row. -/
def blockTerm (s t : SP.Idx → EReal) (h : SH.Idx → EReal) (b : Fin 10) (e : Fin 5000) (p : Fin 33) : EReal :=
  ∑ k : Fin 5000, wrow (fun j => s (ix2 (vtx b k) j)) (fun j => t (ix2 (vtx b k) j)) p * h (ix2 (vtx b k) e)

/-- The contributions of blocks 0‥n added up. -/
def accUpTo (s t : SP.Idx → EReal) (h : SH.Idx → EReal) (n : ℕ) (e : Fin 5000) (p : Fin 33) : EReal :=
  ∑ b : Fin 10, if b.val ≤ n then blockTerm s t h b e p else 0

/-- The divergence term of class `c` computed from a row of 33: entries `c` and `16 + c` over entry 32. -/
def klOf (A : Fin 33 → EReal) (c : Fin 16) : EReal :=
  Ideal.exp (Ideal.log (Ideal.div (Ideal.div (A ⟨16 + c.val, by omega⟩) (A 32)) half + eps))
    * (Ideal.log (Ideal.div (Ideal.div (A ⟨16 + c.val, by omega⟩) (A 32)) half + eps)
        - Ideal.log (Ideal.div (Ideal.div (A ⟨c.val, by omega⟩) (A 32)) half + eps))

end Cert.EdgeKl

end
-- ==== Proof.BlocksI.lean ====
/-
  Which entries of the argument arrays a point's blocks hold.

  Point `t` of the grid is row block `t % 10` of column tile `t / 10`. Row `k` of a score block is row
  `(t % 10) · 5000 + k` of the score array; entry (k, q) of the incidence block is entry
  ((t % 10) · 5000 + k, (t / 10) · 512 + q) of the incidence matrix when that column exists (the last tile overhangs the
  matrix); the output block's entry (c, q) is entry (c, (t / 10) · 512 + q) of the result.
-/
import proofs.«107464_j57612691309114_2_alg».proof.Proof.FrameI
import proofs.«107464_j57612691309114_2_alg».proof.Proof.EdgeKlBlocks
import Idealize.ShloMosaic.Lib.ValueIdx
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Body

open Idealize.ShloMosaic.ValueIdx Cert.EdgeKl

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The index maps and the cuts at the matrix's end, decided over the grid. -/
theorem idx_facts : ∀ t : Fin cfg0.N,
    win0_0.index t (0 : Fin 2) = t.val % 10 ∧ win0_0.index t (1 : Fin 2) = 0
    ∧ win0_1.index t (0 : Fin 2) = t.val % 10 ∧ win0_1.index t (1 : Fin 2) = 0
    ∧ win0_2.index t (0 : Fin 2) = t.val % 10 ∧ win0_2.index t (1 : Fin 2) = t.val / 10
    ∧ win0_3.index t (0 : Fin 2) = 0 ∧ win0_3.index t (1 : Fin 2) = t.val / 10
    ∧ win0_2.xsize (grid0.coords t) (0 : Fin 2) = 5000 ∧ win0_2.xsize (grid0.coords t) (1 : Fin 2) = min 512 (5000 - t.val / 10 * 512)
    ∧ win0_3.xsize (grid0.coords t) (0 : Fin 2) = 16 ∧ win0_3.xsize (grid0.coords t) (1 : Fin 2) = min 512 (5000 - t.val / 10 * 512) :=
  (by decide +kernel : ∀ t : Fin grid0.N, _)

/-- The row block of point `t`. -/
def rowBlk (t : Fin cfg0.N) : Fin 10 := ⟨t.val % 10, Nat.mod_lt _ (by decide)⟩

theorem iblk0_apply (c : Dev nD) (t : Fin cfg0.N) (k : Fin 5000) (j : Fin 16) :
    iblk m c 0 t (ix2 k j : S5000x16.Idx) = V m c main_arg0 (ix2 (vtx (rowBlk t) k) j) := by
  obtain ⟨e0, e1, -⟩ := idx_facts t
  show V m c main_arg0 (((cfg0.win 0).blk t).view.emb (ix2 k j : S5000x16.Idx)) = _
  refine congrArg _ (funext fun a => Fin.ext ?_)
  match a with
  | ⟨0, _⟩ => show win0_0.index t (0 : Fin 2) * 5000 + 1 * k.val = t.val % 10 * 5000 + k.val; omega
  | ⟨1, _⟩ => show win0_0.index t (1 : Fin 2) * 16 + 1 * j.val = j.val; omega

theorem iblk1_apply (c : Dev nD) (t : Fin cfg0.N) (k : Fin 5000) (j : Fin 16) :
    iblk m c 1 t (ix2 k j : S5000x16.Idx) = V m c main_arg1 (ix2 (vtx (rowBlk t) k) j) := by
  obtain ⟨-, -, e0, e1, -⟩ := idx_facts t
  show V m c main_arg1 (((cfg0.win 1).blk t).view.emb (ix2 k j : S5000x16.Idx)) = _
  refine congrArg _ (funext fun a => Fin.ext ?_)
  match a with
  | ⟨0, _⟩ => show win0_1.index t (0 : Fin 2) * 5000 + 1 * k.val = t.val % 10 * 5000 + k.val; omega
  | ⟨1, _⟩ => show win0_1.index t (1 : Fin 2) * 16 + 1 * j.val = j.val; omega

theorem hblk_apply (c : Dev nD) (t : Fin cfg0.N) (d : Vec F S5000x512 .f32) (k : Fin 5000) (q : Fin 512)
    (hq : t.val / 10 * 512 + q.val < 5000) :
    hblk m c t d (ix2 k q : S5000x512.Idx) = V m c main_arg2 (ix2 (vtx (rowBlk t) k) (⟨t.val / 10 * 512 + q.val, hq⟩ : Fin 5000)) := by
  obtain ⟨-, -, -, -, e0, e1, -, -, x0, x1, -⟩ := idx_facts t
  have hm : win0_2.moved (grid0.coords t) (ix2 k q : S5000x512.Idx) = true := (win0_2.moved_iff _ _).mpr fun a => by
    match a with
    | ⟨0, _⟩ => show k.val < win0_2.xsize (grid0.coords t) (0 : Fin 2); rw [x0]; exact k.isLt
    | ⟨1, _⟩ => show q.val < win0_2.xsize (grid0.coords t) (1 : Fin 2); rw [x1]; omega
  unfold hblk Window.fill; rw [dif_pos hm]
  show V m c main_arg2 (((cfg0.win 2).blk t).view.emb _) = _
  refine congrArg _ (funext fun a => Fin.ext ?_)
  match a with
  | ⟨0, _⟩ => show win0_2.index t (0 : Fin 2) * 5000 + 1 * k.val = t.val % 10 * 5000 + k.val; omega
  | ⟨1, _⟩ => show win0_2.index t (1 : Fin 2) * 512 + 1 * q.val = t.val / 10 * 512 + q.val; omega

end Cert.KernelIdeal.Body

end
-- ==== Proof.ResultI.lean ====
/-
  The result array of the kernel call, on the extended reals.

  The accumulator predicate is "on the columns inside the matrix, entry (p, q) of the accumulator after point t is the
  sum of the weight-row entries p times the incidence entries over row blocks 0 ‥ t % 10". At the last row block the
  output block computed from such an accumulator is, on the columns inside the matrix, the divergence terms of the
  tile's edges; the ten written-back blocks cover the 16 × 5000 result, which therefore ends holding the divergence
  term of edge e and class c at (c, e).
-/
import proofs.«107464_j57612691309114_2_alg».proof.Proof.BlocksI
import Idealize.ShloMosaic.Lib.Pipeline.FrameBody
import Idealize.ShloMosaic.Lib.Pipeline.FrameSuffix
import Idealize.ShloMosaic.Lib.Pipeline.Value
import Idealize.ShloMosaic.Lib.StableHlo.Run
import Idealize.ShloMosaic.Lib.ValueIdx
import Idealize.ShloMosaic.PureOps.Ideal.Laws
import Idealize.ShloMosaic.Lib.Tactic

set_option maxRecDepth 16384

noncomputable section

namespace Cert.KernelIdeal.Result

open Cert.KernelIdeal Cert.KernelIdeal.Gen Cert.KernelIdeal.Body
open Idealize.ShloMosaic Idealize.ShloMosaic.TcCoe Idealize.ShloMosaic.Tactic Idealize.ShloMosaic.ValueIdx Cert.EdgeKl
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-- The three argument arrays on core `c`. -/
abbrev sA (c : Dev nD) : SP.Idx → EReal := V m c main_arg0
abbrev tA (c : Dev nD) : SP.Idx → EReal := V m c main_arg1
abbrev hA (c : Dev nD) : SH.Idx → EReal := V m c main_arg2

/-- The accumulator after point `n`, on the columns inside the matrix. -/
def GI (c : Dev nD) (n : ℕ) (X : Vec Ideal S33x512 .f32) : Prop :=
  ∀ (p : Fin 33) (q : Fin 512) (hq : n / 10 * 512 + q.val < 5000),
    X (ix2 p q : S33x512.Idx) = accUpTo (sA m c) (tA m c) (hA m c) (n % 10) ⟨n / 10 * 512 + q.val, hq⟩ p

/-- The result: the divergence term of edge `i 1` and class `i 0`. -/
def klArr (c : Dev nD) : S16x5000.Idx → EReal := fun i => kl (sA m c) (tA m c) (hA m c) (i 1) (i 0)

/-- The output block of point `t`: the result's block, zero past the matrix's last column. -/
def outI (c : Dev nD) (t : Fin cfg0.N) : Vec Ideal S16x512 .f32 :=
  (cfg0.win 3).fill (cfg0.grid.coords t) (fun _ => (0 : EReal)) (((cfg0.win 3).blk t).view.read (Elt Ideal) (klArr m c))

theorem mem_blk3 (t : Fin cfg0.N) (i : S16x5000.Idx) :
    i ∈ ((cfg0.win 3).blk t).view.set ↔ ∀ a : Fin 2, win0_3.index t a * S16x512.size a ≤ (i a).val
      ∧ (i a).val < win0_3.index t a * S16x512.size a + win0_3.xsize (grid0.coords t) a := by
  show i ∈ ((View.whole main_v0).slice (win0_3.rect t)).set ↔ _
  rw [View.set_slice_whole, Rect.mem_set_unit]
  exact Iff.rfl

/-- Every entry of the result is in the block some last-row-block point writes back. -/
theorem cover3 (i : S16x5000.Idx) : ∃ t : Fin cfg0.N, (cfg0.win 3).flush t = true ∧ i ∈ ((cfg0.win 3).blk t).view.set := by
  have hi0 : (i 0).val < 16 := (i 0).isLt
  have hi1 : (i 1).val < 5000 := (i 1).isLt
  have hN : cfg0.N = 100 := N_0
  have ht : (i 1).val / 512 * 10 + 9 < cfg0.N := by rw [hN]; omega
  refine ⟨⟨(i 1).val / 512 * 10 + 9, ht⟩, (flush0_3 _).mpr (by show ((i 1).val / 512 * 10 + 9) % 10 = 9; omega), ?_⟩
  rw [mem_blk3]
  obtain ⟨-, -, -, -, -, -, e0, e1, -, -, x0, x1⟩ := idx_facts ⟨(i 1).val / 512 * 10 + 9, ht⟩
  have tv : (⟨(i 1).val / 512 * 10 + 9, ht⟩ : Fin cfg0.N).val = (i 1).val / 512 * 10 + 9 := rfl
  rw [tv] at e1 x1
  intro a
  match a with
  | ⟨0, _⟩ =>
    show win0_3.index ⟨(i 1).val / 512 * 10 + 9, ht⟩ (0 : Fin 2) * 16 ≤ (i 0).val
      ∧ (i 0).val < win0_3.index ⟨(i 1).val / 512 * 10 + 9, ht⟩ (0 : Fin 2) * 16 + win0_3.xsize (grid0.coords ⟨(i 1).val / 512 * 10 + 9, ht⟩) (0 : Fin 2)
    rw [e0, x0]; omega
  | ⟨1, _⟩ =>
    show win0_3.index ⟨(i 1).val / 512 * 10 + 9, ht⟩ (1 : Fin 2) * 512 ≤ (i 1).val
      ∧ (i 1).val < win0_3.index ⟨(i 1).val / 512 * 10 + 9, ht⟩ (1 : Fin 2) * 512 + win0_3.xsize (grid0.coords ⟨(i 1).val / 512 * 10 + 9, ht⟩) (1 : Fin 2)
    rw [e1, x1]; omega

/-- What a last-row-block point writes back is its block of the result. -/
theorem flushed3 (c : Dev nD) (t : Fin cfg0.N) :
    (dats m (GI m) (outI m) 0 c).flushed 3 t = ((cfg0.win 3).blk t).view.read (Elt Ideal) (klArr m c) := by
  show (cfg0.win 3).cut (cfg0.grid.coords t) ((dats m (GI m) (outI m) 0 c).after 3 t) = _
  rw [after3]
  exact (cfg0.win 3).cut_fill _ _ _

/-- The result array after the call. -/
theorem final3 (c : Dev nD) : (dats m (GI m) (outI m) 0 c).arrAt 3 cfg0.N = klArr m c :=
  (dats m (GI m) (outI m) 0 c).arrAt_eq_of_cover 3 (klArr m c) (fun t _ => flushed3 m c t) cover3

end Cert.KernelIdeal.Result

end
-- ==== Proof.LibKeepdims.lean ====
/-
  Two layout operations of a row reduction kept as a column, read at coordinates: a vector of `a` entries cast to
  an `a × 1` column, and such a column laid along the `b` columns of an `a × b` matrix. Entry (i, ·) of either is
  entry `i` of the vector: the cast keeps the row-major position, and the broadcast reads position 0 of the unit axis.
-/
import Idealize.ShloMosaic.Lib.ValueIdx
import Idealize.ShloMosaic.Lib.Pipeline.Value

namespace Cert.Keepdims

open Idealize.ShloMosaic Idealize.ShloMosaic.ValueIdx

variable {α : Type}

/-- A vector cast to a column: entry (i, u) of the column is entry `i` of the vector (the unit coordinate `u` is 0, so
    the row-major position `i · 1 + u` is `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column laid along every column of a matrix: entry (p, c) of the matrix is entry (p, 0) of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.KernelSoftmax.lean ====
/-
  The kernel's row softmax, read at a row and a class. A block of 5000 score rows goes through: the row maximum
  from −∞, taken once more against −∞, kept as a column and laid along the sixteen classes; the subtraction and the
  exponential; the row sum of the exponentials from the zero word, kept as a column and laid along the classes; and
  the division. At row `k` and class `c` the result is `Cert.EdgeKl.rowSoft` of row `k`.
-/
import proofs.«107464_j57612691309114_2_alg».proof.Proof.Gen.KernelIdeal.Skeleton
import proofs.«107464_j57612691309114_2_alg».proof.Proof.EdgeKlBlocks
import proofs.«107464_j57612691309114_2_alg».proof.Proof.LibKeepdims
import Idealize.ShloMosaic.PureOps.Ideal.Laws
import Idealize.ShloMosaic.Lib.ValueIdx

noncomputable section

open scoped BigOperators

namespace Cert.KernelMath

open Idealize.ShloMosaic Idealize.ShloMosaic.ValueIdx Cert.EdgeKl Cert.KernelIdeal

/-- A block's score rows. -/
abbrev Rows : Type := FVec Ideal S5000x16 .f32

/-- The rows' maxima: folded from −∞ over the classes, and taken once more against −∞. -/
def rowMaxVec (v : Rows) : FVec Ideal S5000 .f32 :=
  maximumf (broadcast S5000 (Scalar.ofBits (F := Ideal) .f32 0xFF800000#32))
    (multiReduction .maximumf [1] S5000 v 0xFF800000#32 Gen.reduces_S5000x16_S5000 (.inl rfl) rfl)

/-- A vector of one number per row, kept as a column and laid along the sixteen classes. -/
def keep (x : FVec Ideal S5000 .f32) : Rows :=
  broadcastTo S5000x16 (shapeCast S5000x1 x Gen.shapeCasts_S5000_S5000x1) Gen.broadcasts_S5000x1_S5000x16

/-- The exponentials of the scores less their row's maximum. -/
def expPiece (v : Rows) : Rows := exp (subf v (keep (rowMaxVec v)))

/-- The rows' sums of exponentials, from the zero word. -/
def rowSumVec (v : Rows) : FVec Ideal S5000 .f32 :=
  multiReduction .add [1] S5000 (expPiece v) 0x00000000#32 Gen.reduces_S5000x16_S5000 (.inl rfl) rfl

/-- The block's softmax weights. -/
def softPiece (v : Rows) : Rows := divf (expPiece v) (keep (rowSumVec v))

/-- Row `k` with class `j` put back on the reduced axis is the index (k, j). -/
theorem lift_row (h : S5000x16.Reduces [1] S5000) (k : Fin 5000) (j : Fin 16) : h.lift (ix1 k) j = ix2 k j :=
  funext fun c => Fin.ext (by match c with | ⟨0, _⟩ => rfl | ⟨1, _⟩ => rfl)

theorem rowMaxVec_apply (v : Rows) (k : Fin 5000) : rowMaxVec v (ix1 k) = rmax (fun j => v (ix2 k j)) := by
  have e : multiReduction (F := Ideal) .maximumf [1] S5000 v 0xFF800000#32 Gen.reduces_S5000x16_S5000 (.inl rfl) rfl (ix1 k)
      = (Finset.univ : Finset (Fin 16)).fold max negInf (fun j => v (ix2 k j)) := by
    refine (Ideal.multiReduction_maximumf_single v 0xFF800000#32 Gen.reduces_S5000x16_S5000 (.inl rfl) rfl (ix1 k)).trans ?_
    have e' : (fun j : Fin 16 => v (Gen.reduces_S5000x16_S5000.lift (ix1 k) j)) = fun j : Fin 16 => v (ix2 k j) :=
      funext fun j => congrArg v (lift_row _ k j)
    exact congrArg (fun g : Fin 16 → EReal => (Finset.univ : Finset (Fin 16)).fold max negInf g) e'
  exact congrArg (max negInf) e

theorem keep_apply (x : FVec Ideal S5000 .f32) (k : Fin 5000) (c : Fin 16) : keep x (ix2 k c) = x (ix1 k) := by
  unfold keep
  rw [Cert.Keepdims.broadcastTo_a1_ab_apply, Cert.Keepdims.shapeCast_a_a1_apply]

theorem expPiece_apply (v : Rows) (k : Fin 5000) (c : Fin 16) :
    expPiece v (ix2 k c) = Ideal.exp (v (ix2 k c) - rmax (fun j => v (ix2 k j))) := by
  show Ideal.exp (v (ix2 k c) - keep (rowMaxVec v) (ix2 k c)) = _
  rw [keep_apply, rowMaxVec_apply]

theorem rowSumVec_apply (v : Rows) (k : Fin 5000) :
    rowSumVec v (ix1 k) = ∑ j : Fin 16, Ideal.exp (v (ix2 k j) - rmax (fun j => v (ix2 k j))) := by
  refine (Ideal.multiReduction_add_single (expPiece v) 0x00000000#32 Gen.reduces_S5000x16_S5000 (.inl rfl) rfl (ix1 k)).trans ?_
  show ∑ j : Fin 16, expPiece v (Gen.reduces_S5000x16_S5000.lift (ix1 k) j) = _
  refine Finset.sum_congr rfl fun j _ => ?_
  rw [lift_row, expPiece_apply]

/-- **The block's softmax weights at a row and a class.** -/
theorem softPiece_apply (v : Rows) (k : Fin 5000) (c : Fin 16) :
    softPiece v (ix2 k c) = rowSoft (fun j => v (ix2 k j)) c := by
  show Ideal.div (expPiece v (ix2 k c)) (keep (rowSumVec v) (ix2 k c)) = _
  rw [keep_apply, rowSumVec_apply, expPiece_apply]
  rfl

end Cert.KernelMath

end
-- ==== Proof.KernelAccumulate.lean ====
/-
  The kernel's accumulation step, read at an entry. For a block of 5000 vertices the kernel lays the softmax weights
  of the first score rows, those of the second, and a column of ones side by side into a 5000 × 33 array, and
  contracts it over the vertices with the block of the incidence matrix, into the zero array; the product is added
  to the running 33 × 512 sum. Entry (p, q) of the result is the running sum's entry plus, over the block's vertices
  `k`, entry `p` of vertex `k`'s weight row (`Cert.EdgeKl.wrow`) times the incidence entry (k, q).
-/
import proofs.«107464_j57612691309114_2_alg».proof.Proof.KernelSoftmax
import Idealize.ShloMosaic.Lib.Pipeline.Value

noncomputable section

open scoped BigOperators

namespace Cert.KernelMath

open Idealize.ShloMosaic Idealize.ShloMosaic.ValueIdx Cert.EdgeKl Cert.KernelIdeal

/-- Three pieces of 16, 16 and 1 columns side by side, read at row `k` and column `p`: the piece whose span holds
    `p`, at `p` less the columns before it. -/
theorem concat_row {α : Type} (A B : S5000x16.Idx → α) (C : S5000x1.Idx → α)
    (h : Shape.Concatenates (([⟨S5000x16, A⟩, ⟨S5000x16, B⟩, ⟨S5000x1, C⟩] : List ((s : Shape) × (s.Idx → α))).map (·.1)) S5000x33 1)
    (k : Fin 5000) (p : Fin 33) :
    concatenate S5000x33 1 [⟨S5000x16, A⟩, ⟨S5000x16, B⟩, ⟨S5000x1, C⟩] h (ix2 k p)
      = if h1 : p.val < 16 then A (ix2 k ⟨p.val, h1⟩)
        else if h2 : p.val < 32 then B (ix2 k ⟨p.val - 16, by omega⟩)
        else C (ix2 k (0 : Fin 1)) := by
  have hp := p.isLt
  split
  · next h1 =>
    exact concatenate_apply_piece 1 _ h (ix2 k p) 0 (by show (0 : ℕ) < 3; omega) S5000x16 A rfl rfl 0 rfl (ix2 k ⟨p.val, h1⟩)
      (fun b hb => by match b with | ⟨0, _⟩ => rfl | ⟨1, _⟩ => exact absurd (Fin.ext rfl) hb)
      (by show 0 + p.val = p.val; omega)
  · next h1 =>
    split
    · next h2 =>
      exact concatenate_apply_piece 1 _ h (ix2 k p) 1 (by show (1 : ℕ) < 3; omega) S5000x16 B rfl rfl 16 rfl (ix2 k ⟨p.val - 16, by omega⟩)
        (fun b hb => by match b with | ⟨0, _⟩ => rfl | ⟨1, _⟩ => exact absurd (Fin.ext rfl) hb)
        (by show 16 + (p.val - 16) = p.val; omega)
    · next h2 =>
      exact concatenate_apply_piece 1 _ h (ix2 k p) 2 (by show (2 : ℕ) < 3; omega) S5000x1 C rfl rfl 32 rfl (ix2 k (0 : Fin 1))
        (fun b hb => by match b with | ⟨0, _⟩ => rfl | ⟨1, _⟩ => exact absurd (Fin.ext rfl) hb)
        (by show 32 + 0 = p.val; omega)

/-- The contraction's left operand is read at (k, p): its second coordinate is the result's row. -/
theorem lhs_col (i : S33x512.Idx) (r : dot_S5000x33_S5000x512_S33x512_0_0_1_1_n_n.contr.Idx) :
    (dot_S5000x33_S5000x512_S33x512_0_0_1_1_n_n.lhsIdx i r 1).val = (i 0).val := by
  unfold DotDims.lhsIdx
  rw [dif_neg (show ¬(1 : Fin S5000x33.rank) ∈ dot_S5000x33_S5000x512_S33x512_0_0_1_1_n_n.lhsBatch by decide), dif_pos (show (1 : Fin S5000x33.rank) ∈ dot_S5000x33_S5000x512_S33x512_0_0_1_1_n_n.lhsNonContracting by decide)]
  rfl

/-- The contraction's right operand is read at (k, q): its second coordinate is the result's column. -/
theorem rhs_col (i : S33x512.Idx) (r : dot_S5000x33_S5000x512_S33x512_0_0_1_1_n_n.contr.Idx) :
    (dot_S5000x33_S5000x512_S33x512_0_0_1_1_n_n.rhsIdx i r 1).val = (i 1).val := by
  unfold DotDims.rhsIdx
  rw [dif_neg (show ¬(1 : Fin S5000x512.rank) ∈ dot_S5000x33_S5000x512_S33x512_0_0_1_1_n_n.rhsBatch by decide), dif_pos (show (1 : Fin S5000x512.rank) ∈ dot_S5000x33_S5000x512_S33x512_0_0_1_1_n_n.rhsNonContracting by decide)]
  rfl

/-- The contraction over the block's vertices, into the zero array, at entry (p, q). -/
theorem matmul_read (L : FVec Ideal S5000x33 .bf16) (R : FVec Ideal S5000x512 .bf16) (p : Fin 33) (q : Fin 512) :
    matmul dot_S5000x33_S5000x512_S33x512_0_0_1_1_n_n none L R (constant S33x512 .f32 0x00000000#32) (ix2 p q)
      = ∑ k : Fin 5000, L (ix2 k p) * R (ix2 k q) := by
  simp only [matmul]
  rw [Ideal.matmul_constant_zero_apply, ← Equiv.sum_comp (contrEquiv1 dot_S5000x33_S5000x512_S33x512_0_0_1_1_n_n 5000 rfl rfl).symm]
  refine Finset.sum_congr rfl fun k _ => ?_
  have hk := contrEquiv1_symm_val dot_S5000x33_S5000x512_S33x512_0_0_1_1_n_n 5000 rfl rfl k
  have el : dot_S5000x33_S5000x512_S33x512_0_0_1_1_n_n.lhsIdx (ix2 p q) ((contrEquiv1 dot_S5000x33_S5000x512_S33x512_0_0_1_1_n_n 5000 rfl rfl).symm k) = ix2 k p := funext fun a => Fin.ext (by
    match a with
    | ⟨0, _⟩ => exact ((dot_S5000x33_S5000x512_S33x512_0_0_1_1_n_n).lhsIdx_val_of_single rfl _ _).trans hk
    | ⟨1, _⟩ => exact lhs_col _ _)
  have er : dot_S5000x33_S5000x512_S33x512_0_0_1_1_n_n.rhsIdx (ix2 p q) ((contrEquiv1 dot_S5000x33_S5000x512_S33x512_0_0_1_1_n_n 5000 rfl rfl).symm k) = ix2 k q := funext fun a => Fin.ext (by
    match a with
    | ⟨0, _⟩ => exact ((dot_S5000x33_S5000x512_S33x512_0_0_1_1_n_n).rhsIdx_val_of_single rfl _ _).trans hk
    | ⟨1, _⟩ => exact rhs_col _ _)
  rw [el, er]

/-- The accumulation step's term, with the two softmax pieces named. -/
theorem pay4_eq (x0 x1 : Vec Ideal S5000x16 .f32) (x2 : Vec Ideal S5000x512 .f32) (xs : Vec Ideal S33x512 .f32) :
    Gen.k0_pay4 (F := Ideal) x0 x1 x2 xs
      = addf xs (matmul dot_S5000x33_S5000x512_S33x512_0_0_1_1_n_n none
          (truncf .bf16 (concatenate S5000x33 1
            [⟨S5000x16, softPiece x0⟩, ⟨S5000x16, softPiece x1⟩,
              ⟨S5000x1, broadcast S5000x1 (Scalar.ofBits (F := Ideal) .f32 0x3F800000#32)⟩]
            Gen.concatenates_S5000x16_S5000x16_S5000x1_S5000x33_d1) Gen.bitsLt_bf16_f32)
          (truncf .bf16 x2 Gen.bitsLt_bf16_f32) (constant S33x512 .f32 0x00000000#32)) := rfl

/-- **The accumulation step at an entry.** -/
theorem pay4_apply (x0 x1 : Vec Ideal S5000x16 .f32) (x2 : Vec Ideal S5000x512 .f32) (xs : Vec Ideal S33x512 .f32)
    (p : Fin 33) (q : Fin 512) :
    Gen.k0_pay4 (F := Ideal) x0 x1 x2 xs (ix2 p q)
      = xs (ix2 p q) + ∑ k : Fin 5000, wrow (fun j => x0 (ix2 k j)) (fun j => x1 (ix2 k j)) p * x2 (ix2 k q) := by
  rw [pay4_eq]
  refine (congrArg (xs (ix2 p q) + ·) (matmul_read _ _ p q)).trans ?_
  refine congrArg (xs (ix2 p q) + ·) (Finset.sum_congr rfl fun k _ => ?_)
  refine congrArg (· * x2 (ix2 k q)) ?_
  refine (concat_row (softPiece x0) (softPiece x1) (broadcast S5000x1 (Scalar.ofBits (F := Ideal) .f32 0x3F800000#32))
    Gen.concatenates_S5000x16_S5000x16_S5000x1_S5000x33_d1 k p).trans ?_
  unfold wrow
  by_cases h1 : p.val < 16
  · rw [dif_pos h1, dif_pos h1, softPiece_apply]
  · rw [dif_neg h1, dif_neg h1]
    by_cases h2 : p.val < 32
    · rw [dif_pos h2, dif_pos h2, softPiece_apply]
    · rw [dif_neg h2, dif_neg h2]
      rfl

end Cert.KernelMath

end
-- ==== Proof.LibChunkSum.lean ====
/-
  A finite sum taken chunk by chunk.

  The first `n * B` numbers are `n` consecutive chunks of `B` consecutive numbers, position `j` of chunk `c` being
  the number `c * B + j`; in a commutative monoid a sum over all of them is the sum over the chunks of each chunk's
  sum.  And a sum over nine terms is the nine added one after the other onto zero, from the left — the shape an
  accumulator that starts at zero and takes nine partial sums in turn ends with.
-/
import Mathlib.Algebra.BigOperators.Fin
import Mathlib.Logic.Equiv.Fin.Basic

namespace Cert.ChunkSum

variable {M : Type*} [AddCommMonoid M]

/-- The sum over `Fin (n * B)` is the sum over the `n` chunks of the sum over each chunk's `B` positions. -/
theorem sum_fin_chunks (n B : ℕ) (G : Fin (n * B) → M) :
    ∑ k : Fin (n * B), G k
      = ∑ c : Fin n, ∑ j : Fin B, G ⟨c.val * B + j.val, by
          have hc := c.isLt; have hj := j.isLt
          have h1 : c.val * B + j.val < (c.val + 1) * B := by rw [Nat.succ_mul]; omega
          exact lt_of_lt_of_le h1 (Nat.mul_le_mul_right B hc)⟩ := by
  rw [← Equiv.sum_comp finProdFinEquiv G, Fintype.sum_prod_type]
  refine Finset.sum_congr rfl fun c _ => Finset.sum_congr rfl fun j _ => congrArg G (Fin.ext ?_)
  show j.val + B * c.val = c.val * B + j.val
  rw [Nat.mul_comm, Nat.add_comm]

/-- Nine terms added one after the other onto zero, from the left, are their sum. -/
theorem sum_fin_nine (s : Fin 9 → M) :
    ∑ c : Fin 9, s c = ((((((((0 + s 0) + s 1) + s 2) + s 3) + s 4) + s 5) + s 6) + s 7) + s 8 := by
  rw [Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_zero]
  rfl

end Cert.ChunkSum
-- ==== Proof.EdgeKlBlockSums.lean ====
/-
  The block-by-block sum closes to the whole sum. `accUpTo n` adds the contributions of blocks 0‥n: it starts at
  block 0's, each further block adds its own, and after the tenth block every vertex has been counted once (the
  50000 vertices are ten consecutive chunks of 5000). Then entries 0‥15 of an edge's row are the first scores' edge
  sums, entries 16‥31 the second's, and entry 32 — where each vertex's weight is the word for 1 — the edge's degree;
  so the divergence term computed from the row is `kl`.
-/
import proofs.«107464_j57612691309114_2_alg».proof.Proof.EdgeKlBlocks
import proofs.«107464_j57612691309114_2_alg».proof.Proof.LibChunkSum
import Idealize.ShloMosaic.Lib.IdealHost

noncomputable section

open scoped BigOperators

namespace Cert.BlockSums

open Idealize.ShloMosaic Idealize.ShloMosaic.ValueIdx Cert.EdgeKl

variable (s t : SP.Idx → EReal) (h : SH.Idx → EReal)

/-- After block 0 the sum is block 0's contribution. -/
theorem accUpTo_zero (e : Fin 5000) (p : Fin 33) : accUpTo s t h 0 e p = blockTerm s t h 0 e p := by
  unfold accUpTo
  rw [Finset.sum_eq_single (0 : Fin 10)]
  · rw [if_pos (show (0 : Fin 10).val ≤ 0 from Nat.le_refl 0)]
  · intro b _ hb
    rw [if_neg]
    intro hle
    exact hb (Fin.ext (by show b.val = 0; omega))
  · intro hm
    exact absurd (Finset.mem_univ _) hm

/-- Each further block adds its own contribution. -/
theorem accUpTo_succ (n : ℕ) (hn : n < 9) (e : Fin 5000) (p : Fin 33) :
    accUpTo s t h (n + 1) e p = accUpTo s t h n e p + blockTerm s t h ⟨n + 1, by omega⟩ e p := by
  unfold accUpTo
  have key : ∀ b : Fin 10, (if b.val ≤ n + 1 then blockTerm s t h b e p else 0)
      = (if b.val ≤ n then blockTerm s t h b e p else 0)
        + (if b = (⟨n + 1, by omega⟩ : Fin 10) then blockTerm s t h b e p else 0) := by
    intro b
    by_cases h1 : b.val ≤ n
    · have hne : ¬b = (⟨n + 1, by omega⟩ : Fin 10) := fun hb => by
        have := congrArg Fin.val hb
        simp only at this
        omega
      rw [if_pos (by omega), if_pos h1, if_neg hne, add_zero]
    · by_cases h2 : b.val = n + 1
      · rw [if_pos (by omega), if_neg h1, if_pos (Fin.ext h2), zero_add]
      · have hne : ¬b = (⟨n + 1, by omega⟩ : Fin 10) := fun hb => h2 (congrArg Fin.val hb)
        rw [if_neg (by omega), if_neg h1, if_neg hne, add_zero]
  rw [Finset.sum_congr rfl (fun b _ => key b), Finset.sum_add_distrib, Finset.sum_ite_eq', if_pos (Finset.mem_univ _)]

/-- After the tenth block every vertex has been counted once. -/
theorem accUpTo_nine (e : Fin 5000) (p : Fin 33) :
    accUpTo s t h 9 e p = ∑ v : Fin 50000, wrow (fun j => s (ix2 v j)) (fun j => t (ix2 v j)) p * h (ix2 v e) := by
  unfold accUpTo
  have hall : ∀ b : Fin 10, (if b.val ≤ 9 then blockTerm s t h b e p else 0) = blockTerm s t h b e p := fun b => by
    rw [if_pos (by have := b.isLt; omega)]
  rw [Finset.sum_congr rfl (fun b _ => hall b)]
  exact (Cert.ChunkSum.sum_fin_chunks 10 5000
    (fun v : Fin 50000 => wrow (fun j => s (ix2 v j)) (fun j => t (ix2 v j)) p * h (ix2 v e))).symm

/-- The word for 1 is 1. -/
theorem one_eq : one = 1 := Ideal.ofBits_one_f32

/-- Entries 0‥15 of the finished row are the first scores' edge sums. -/
theorem accUpTo_nine_fst (e : Fin 5000) (c : Fin 16) :
    accUpTo s t h 9 e ⟨c.val, by omega⟩ = edgeSum s h e c := by
  rw [accUpTo_nine]
  unfold edgeSum
  refine Finset.sum_congr rfl fun v _ => ?_
  unfold wrow
  rw [dif_pos (show (⟨c.val, by omega⟩ : Fin 33).val < 16 from c.isLt), mul_comm, soft_eq_rowSoft]

/-- Entries 16‥31 of the finished row are the second scores' edge sums. -/
theorem accUpTo_nine_snd (e : Fin 5000) (c : Fin 16) :
    accUpTo s t h 9 e ⟨16 + c.val, by omega⟩ = edgeSum t h e c := by
  rw [accUpTo_nine]
  unfold edgeSum
  refine Finset.sum_congr rfl fun v _ => ?_
  unfold wrow
  have hc := c.isLt
  rw [dif_neg (show ¬(⟨16 + c.val, by omega⟩ : Fin 33).val < 16 from by show ¬16 + c.val < 16; omega),
    dif_pos (show (⟨16 + c.val, by omega⟩ : Fin 33).val < 32 from by show 16 + c.val < 32; omega), mul_comm, soft_eq_rowSoft]
  exact congrArg (h (ix2 v e) * rowSoft (fun j => t (ix2 v j)) ·) (Fin.ext (by show 16 + c.val - 16 = c.val; omega))

/-- Entry 32 of the finished row is the edge's degree. -/
theorem accUpTo_nine_deg (e : Fin 5000) : accUpTo s t h 9 e 32 = deg h e := by
  rw [accUpTo_nine]
  unfold deg
  refine Finset.sum_congr rfl fun v _ => ?_
  unfold wrow
  rw [dif_neg (show ¬(32 : Fin 33).val < 16 by decide), dif_neg (show ¬(32 : Fin 33).val < 32 by decide), one_eq, one_mul]

/-- **The divergence term computed from the finished row is `kl`.** -/
theorem klOf_accUpTo_nine (e : Fin 5000) (c : Fin 16) : klOf (accUpTo s t h 9 e) c = kl s t h e c := by
  unfold klOf kl logMean
  rw [accUpTo_nine_fst, accUpTo_nine_snd, accUpTo_nine_deg]

end Cert.BlockSums

end
-- ==== Proof.TrackI.lean ====
/-
  The accumulator keeps up with the points.

  At point t the kernel adds to the accumulator (zeroed first at a first row block) the product of the point's weight
  rows with its incidence block. Row k of the point's score blocks is row (t % 10) · 5000 + k of the score arrays, and
  column q of its incidence block is column (t / 10) · 512 + q of the matrix when that column exists, so on those columns
  the addition is exactly the row block's contribution to the edge's row of 33: the accumulator after the point is the
  sum of the contributions of row blocks 0 ‥ t % 10.
-/
import proofs.«107464_j57612691309114_2_alg».proof.Proof.ResultI
import proofs.«107464_j57612691309114_2_alg».proof.Proof.KernelAccumulate
import proofs.«107464_j57612691309114_2_alg».proof.Proof.EdgeKlBlockSums
import Idealize.ShloMosaic.Lib.Pipeline.FrameBody
import Idealize.ShloMosaic.Lib.Pipeline.FrameSuffix
import Idealize.ShloMosaic.Lib.Pipeline.Value
import Idealize.ShloMosaic.Lib.StableHlo.Run
import Idealize.ShloMosaic.Lib.ValueIdx
import Idealize.ShloMosaic.PureOps.Ideal.Laws
import Idealize.ShloMosaic.Lib.Tactic

set_option maxRecDepth 16384

noncomputable section

namespace Cert.KernelIdeal.Track

open Cert.KernelIdeal Cert.KernelIdeal.Gen Cert.KernelIdeal.Body
open Idealize.ShloMosaic Idealize.ShloMosaic.TcCoe Idealize.ShloMosaic.Tactic Idealize.ShloMosaic.ValueIdx Cert.EdgeKl
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

open Cert.KernelIdeal.Result

theorem pay1_eq (v : Vec Ideal S33x512 .f32) : k0_pay1 (F := Ideal) v = v := by
  unfold k0_pay1; exact shapeCast_self _ _

theorem pay3_apply (j : S33x512.Idx) : k0_pay3 (F := Ideal) j = 0 := by
  unfold k0_pay3; rw [shapeCast_self]; show Ideal.ofBits .f32 0x00000000#32 = 0; exact Ideal.ofBits_zero_f32

/-- One point's addition on a column inside the matrix: the accumulator's entry plus the row block's contribution. -/
theorem step_apply (c : Dev nD) (t : Fin cfg0.N) (d : Vec Ideal S5000x512 .f32) (Z : Vec Ideal S33x512 .f32)
    (p : Fin 33) (q : Fin 512) (hq : t.val / 10 * 512 + q.val < 5000) :
    accStep (iblk m c 0 t) (iblk m c 1 t) (hblk m c t d) Z (ix2 p q : S33x512.Idx)
      = Z (ix2 p q : S33x512.Idx) + blockTerm (sA m c) (tA m c) (hA m c) (rowBlk t) ⟨t.val / 10 * 512 + q.val, hq⟩ p := by
  unfold accStep
  rw [pay1_eq]
  refine (Cert.KernelMath.pay4_apply (iblk m c 0 t) (iblk m c 1 t) (hblk m c t d) Z p q).trans ?_
  unfold blockTerm
  refine congrArg (fun z => Z (ix2 p q : S33x512.Idx) + z) (Finset.sum_congr rfl fun k _ => ?_)
  rw [hblk_apply m c t d k q hq]
  refine congrArg (fun z => z * _) ?_
  exact congrArg₂ (fun a b => wrow a b p) (funext fun j => iblk0_apply m c t k j) (funext fun j => iblk1_apply m c t k j)

/-- The accumulator's predicate keeps up with the points. -/
theorem tracksI (c : Dev nD) : Tracks m (GI m) c := by
  intro t d Y hY p q hq
  rw [step_apply m c t d _ p q hq]
  by_cases h0 : t.val % 10 = 0
  · -- a first row block: the accumulator was zeroed
    unfold accIn; rw [if_pos ((hcond1 t).mpr h0), pay3_apply, zero_add]
    have hb : rowBlk t = 0 := Fin.ext h0
    rw [hb, h0, Cert.BlockSums.accUpTo_zero]
  · -- a later row block: the point before left the sum of the earlier blocks
    unfold accIn; rw [if_neg (fun h => h0 ((hcond1 t).mp h))]
    have hN : t.val < 100 := lt_of_lt_of_eq t.isLt (show cfg0.N = 100 from N_0)
    have e1 : (t.val - 1) / 10 = t.val / 10 := by omega
    have e2 : (t.val - 1) % 10 = t.val % 10 - 1 := by omega
    have hq' : (t.val - 1) / 10 * 512 + q.val < 5000 := by rw [e1]; exact hq
    have hprev := hY h0 p q hq'
    rw [hprev]
    obtain ⟨n, hn⟩ : ∃ n, t.val % 10 = n + 1 := ⟨t.val % 10 - 1, by omega⟩
    have hn9 : n < 9 := by omega
    have hb : rowBlk t = ⟨n + 1, by omega⟩ := Fin.ext hn
    have hidx : (⟨(t.val - 1) / 10 * 512 + q.val, hq'⟩ : Fin 5000) = ⟨t.val / 10 * 512 + q.val, hq⟩ := Fin.ext (by show (t.val - 1) / 10 * 512 + q.val = t.val / 10 * 512 + q.val; omega)
    rw [hb, hn, hidx, e2, hn, Nat.add_sub_cancel, Cert.BlockSums.accUpTo_succ _ _ _ n hn9]

end Cert.KernelIdeal.Track

end
-- ==== Proof.KernelDivergence.lean ====
/-
  The kernel's closing step, read at a class and an edge. From the finished 33 × 512 sum the kernel takes rows 0‥15
  (the first scores' edge sums), rows 16‥31 (the second's) and row 32 (the degrees); it divides the first two by the
  degrees laid down the sixteen rows, then by the temperature word, adds ε, takes logarithms, and forms
  exp(l₂) · (l₂ − l₁). At class `c` and column `q` that is `Cert.EdgeKl.klOf` of column `q`'s 33 entries.
-/
import proofs.«107464_j57612691309114_2_alg».proof.Proof.Gen.KernelIdeal.Skeleton
import proofs.«107464_j57612691309114_2_alg».proof.Proof.EdgeKlBlocks
import Idealize.ShloMosaic.Lib.Pipeline.Value
import Idealize.ShloMosaic.Lib.ValueIdx
import Idealize.ShloMosaic.PureOps.Ideal.Laws

noncomputable section

open scoped BigOperators

namespace Cert.KernelMath

open Idealize.ShloMosaic Idealize.ShloMosaic.ValueIdx Cert.EdgeKl Cert.KernelIdeal

/-- The divergence term from a first edge sum `a`, a second edge sum `b` and a degree `d`. -/
def klTerm (a b d : EReal) : EReal :=
  Ideal.exp (Ideal.log (Ideal.div (Ideal.div b d) half + eps))
    * (Ideal.log (Ideal.div (Ideal.div b d) half + eps) - Ideal.log (Ideal.div (Ideal.div a d) half + eps))

theorem klOf_eq_klTerm (A : Fin 33 → EReal) (c : Fin 16) :
    klOf A c = klTerm (A ⟨c.val, by omega⟩) (A ⟨16 + c.val, by omega⟩) (A 32) := rfl

/-- Column `q` of the finished sum as a row of 33: the sixteen rows of `fst`, the sixteen of `snd`, the one of `top`. -/
def rowOf (top : S1x512.Idx → EReal) (fst snd : S16x512.Idx → EReal) (q : Fin 512) (p : Fin 33) : EReal :=
  if h : p.val < 16 then fst (ix2 ⟨p.val, h⟩ q)
  else if h' : p.val < 32 then snd (ix2 ⟨p.val - 16, by omega⟩ q)
  else top (ix2 (0 : Fin 1) q)

theorem rowOf_fst (top : S1x512.Idx → EReal) (fst snd : S16x512.Idx → EReal) (q : Fin 512) (c : Fin 16) :
    rowOf top fst snd q ⟨c.val, by omega⟩ = fst (ix2 c q) := by
  unfold rowOf
  exact dif_pos c.isLt

theorem rowOf_snd (top : S1x512.Idx → EReal) (fst snd : S16x512.Idx → EReal) (q : Fin 512) (c : Fin 16) :
    rowOf top fst snd q ⟨16 + c.val, by omega⟩ = snd (ix2 c q) := by
  unfold rowOf
  have hc := c.isLt
  rw [dif_neg (show ¬(⟨16 + c.val, by omega⟩ : Fin 33).val < 16 by show ¬16 + c.val < 16; omega),
    dif_pos (show (⟨16 + c.val, by omega⟩ : Fin 33).val < 32 by show 16 + c.val < 32; omega)]
  exact congrArg (fun z => snd (ix2 z q)) (Fin.ext (by show 16 + c.val - 16 = c.val; omega))

theorem rowOf_top (top : S1x512.Idx → EReal) (fst snd : S16x512.Idx → EReal) (q : Fin 512) :
    rowOf top fst snd q 32 = top (ix2 (0 : Fin 1) q) := by
  unfold rowOf
  rw [dif_neg (show ¬(32 : Fin 33).val < 16 by decide), dif_neg (show ¬(32 : Fin 33).val < 32 by decide)]

/-- One row laid down sixteen rows: entry (c, q) is entry (0, q) of the row. -/
theorem bcast_row {α : Type} (v : S1x512.Idx → α) (h : S1x512.Broadcasts S16x512) (c : Fin 16) (q : Fin 512) :
    broadcastTo S16x512 v h (ix2 c q) = v (ix2 (0 : Fin 1) q) := by
  refine broadcastTo_apply v h (ix2 c q) (ix2 (0 : Fin 1) q) fun ax => ?_
  match ax with
  | ⟨0, _⟩ => show 0 = if (1 : Nat) = 1 then 0 else c.val; rw [if_pos rfl]
  | ⟨1, _⟩ => show q.val = if (512 : Nat) = 1 then 0 else q.val; rw [if_neg (by decide)]

/-- The closing step at a class and a column, from the three numbers it reads there. -/
theorem pay2_term (v41 : Vec Ideal S1x512 .f32) (v42 v45 : Vec Ideal S16x512 .f32) (c : Fin 16) (q : Fin 512) :
    Gen.k0_pay2 (F := Ideal) v41 v42 v45 (ix2 c q)
      = klTerm (v42 (ix2 c q)) (v45 (ix2 c q)) (v41 (ix2 (0 : Fin 1) q)) := by
  have hb := bcast_row v41 Gen.broadcasts_S1x512_S16x512 c q
  unfold Gen.k0_pay2
  show klTerm (v42 (ix2 c q)) (v45 (ix2 c q)) (broadcastTo S16x512 v41 Gen.broadcasts_S1x512_S16x512 (ix2 c q)) = _
  rw [hb]

/-- **The closing step at a class and a column is `klOf` of the column's 33 entries.** -/
theorem pay2_apply (v41 : Vec Ideal S1x512 .f32) (v42 v45 : Vec Ideal S16x512 .f32) (c : Fin 16) (q : Fin 512) :
    Gen.k0_pay2 (F := Ideal) v41 v42 v45 (ix2 c q) = klOf (rowOf v41 v42 v45 q) c := by
  rw [pay2_term, klOf_eq_klTerm, rowOf_fst, rowOf_snd, rowOf_top]

/-- The same with the column's 33 entries written out. -/
theorem pay2_apply_cases (v41 : Vec Ideal S1x512 .f32) (v42 v45 : Vec Ideal S16x512 .f32) (c : Fin 16) (q : Fin 512) :
    Gen.k0_pay2 (F := Ideal) v41 v42 v45 (ix2 c q)
      = klOf (fun p : Fin 33 => if h : p.val < 16 then v42 (ix2 ⟨p.val, h⟩ q)
          else if h' : p.val < 32 then v45 (ix2 ⟨p.val - 16, by omega⟩ q) else v41 (ix2 (0 : Fin 1) q)) c :=
  pay2_apply v41 v42 v45 c q

end Cert.KernelMath

end
-- ==== Proof.OutsI.lean ====
/-
  The output block at a last row block.

  From an accumulator whose columns inside the matrix hold the full sums over the ten row blocks, the finished block's
  entry (c, q) is the divergence term computed from the row of 33 at column q: entries c and 16 + c over entry 32, that
  is, the two mean weights of edge (t / 10) · 512 + q over its degree. On the columns the write-back moves this is the
  result's block.
-/
import proofs.«107464_j57612691309114_2_alg».proof.Proof.TrackI
import proofs.«107464_j57612691309114_2_alg».proof.Proof.KernelDivergence
import Idealize.ShloMosaic.Lib.Pipeline.FrameBody
import Idealize.ShloMosaic.Lib.Pipeline.FrameSuffix
import Idealize.ShloMosaic.Lib.Pipeline.Value
import Idealize.ShloMosaic.Lib.StableHlo.Run
import Idealize.ShloMosaic.Lib.ValueIdx
import Idealize.ShloMosaic.PureOps.Ideal.Laws
import Idealize.ShloMosaic.Lib.Tactic

set_option maxRecDepth 16384

noncomputable section

namespace Cert.KernelIdeal.Outs

open Cert.KernelIdeal Cert.KernelIdeal.Gen Cert.KernelIdeal.Body
open Idealize.ShloMosaic Idealize.ShloMosaic.TcCoe Idealize.ShloMosaic.Tactic Idealize.ShloMosaic.ValueIdx Cert.EdgeKl
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

open Cert.KernelIdeal.Result Cert.KernelIdeal.Track

theorem ld_rFst (X : Vec Ideal S33x512 .f32) (cc : Fin 16) (q : Fin 512) :
    View.ld X rFst (ix2 cc q : S16x512.Idx) = X (ix2 (⟨cc.val, by omega⟩ : Fin 33) q : S33x512.Idx) := by
  show X (rFst.emb (ix2 cc q : S16x512.Idx)) = _
  refine congrArg X (funext fun a => Fin.ext ?_)
  match a with
  | ⟨0, _⟩ => show 0 + 1 * cc.val = cc.val; omega
  | ⟨1, _⟩ => show 0 + 1 * q.val = q.val; omega

theorem ld_rSnd (X : Vec Ideal S33x512 .f32) (cc : Fin 16) (q : Fin 512) :
    View.ld X rSnd (ix2 cc q : S16x512.Idx) = X (ix2 (⟨16 + cc.val, by omega⟩ : Fin 33) q : S33x512.Idx) := by
  show X (rSnd.emb (ix2 cc q : S16x512.Idx)) = _
  refine congrArg X (funext fun a => Fin.ext ?_)
  match a with
  | ⟨0, _⟩ => show 16 + 1 * cc.val = 16 + cc.val; omega
  | ⟨1, _⟩ => show 0 + 1 * q.val = q.val; omega

theorem ld_rDeg (X : Vec Ideal S33x512 .f32) (u : Fin 1) (q : Fin 512) :
    View.ld X rDeg (ix2 u q : S1x512.Idx) = X (ix2 (32 : Fin 33) q : S33x512.Idx) := by
  show X (rDeg.emb (ix2 u q : S1x512.Idx)) = _
  refine congrArg X (funext fun a => Fin.ext ?_)
  match a with
  | ⟨0, _⟩ => show 32 + 1 * u.val = 32; omega
  | ⟨1, _⟩ => show 0 + 1 * q.val = q.val; omega

/-- The finished block's entry (c, q) is the divergence term of the accumulator's column q. -/
theorem finish_apply (X : Vec Ideal S33x512 .f32) (cc : Fin 16) (q : Fin 512) :
    finish X (ix2 cc q : S16x512.Idx) = klOf (fun p => X (ix2 p q : S33x512.Idx)) cc := by
  unfold finish
  rw [Cert.KernelMath.pay2_term, ld_rFst, ld_rSnd, ld_rDeg, Cert.KernelMath.klOf_eq_klTerm]

/-- At a last row block the finished block is the result's block on the columns the write-back moves. -/
theorem outsI (c : Dev nD) : Outs (GI m) (outI m) c := by
  intro t h9 X hX
  unfold outI
  rw [(cfg0.win 3).cut_fill]
  funext y
  obtain ⟨-, -, -, -, -, -, e0, e1, -, -, x0, x1⟩ := idx_facts t
  have hy0 : (y 0).val < 16 := by
    have h : (y 0).val < win0_3.xsize (grid0.coords t) (0 : Fin 2) := (y 0).isLt
    rwa [x0] at h
  have hy1 : (y 1).val < min 512 (5000 - t.val / 10 * 512) := by
    have h : (y 1).val < win0_3.xsize (grid0.coords t) (1 : Fin 2) := (y 1).isLt
    rwa [x1] at h
  have hy1' : (y 1).val < 512 := by omega
  have hq : t.val / 10 * 512 + (y 1).val < 5000 := by omega
  have ex : (cfg0.win 3).xinj (cfg0.grid.coords t) y = (ix2 (⟨(y 0).val, hy0⟩ : Fin 16) (⟨(y 1).val, hy1'⟩ : Fin 512) : S16x512.Idx) :=
    funext fun a => Fin.ext (by match a with | ⟨0, _⟩ => rfl | ⟨1, _⟩ => rfl)
  show finish X ((cfg0.win 3).xinj (cfg0.grid.coords t) y) = klArr m c (((cfg0.win 3).blk t).view.emb y)
  rw [ex, finish_apply]
  have hrow : (fun p : Fin 33 => X (ix2 p (⟨(y 1).val, hy1'⟩ : Fin 512) : S33x512.Idx))
      = accUpTo (sA m c) (tA m c) (hA m c) 9 ⟨t.val / 10 * 512 + (y 1).val, hq⟩ :=
    funext fun p => by rw [hX p ⟨(y 1).val, hy1'⟩ hq, h9]
  rw [hrow, Cert.BlockSums.klOf_accUpTo_nine]
  unfold klArr
  have i1 : (((cfg0.win 3).blk t).view.emb y) 1 = (⟨t.val / 10 * 512 + (y 1).val, hq⟩ : Fin 5000) :=
    Fin.ext (by show win0_3.index t (1 : Fin 2) * 512 + 1 * (y 1).val = t.val / 10 * 512 + (y 1).val; omega)
  have i0 : (((cfg0.win 3).blk t).view.emb y) 0 = (⟨(y 0).val, hy0⟩ : Fin 16) :=
    Fin.ext (by show win0_3.index t (0 : Fin 2) * 16 + 1 * (y 0).val = (y 0).val; omega)
  rw [i1, i0]

end Cert.KernelIdeal.Outs

end
-- ==== Proof.LibIdxSum.lean ====
/-
  A sum over the indices of a one-axis array, or of an array whose only axis longer than one is the first, is the sum
  over that axis's coordinates: the index set is in bijection with the coordinate's range, every other coordinate
  being 0.
-/
import Idealize.ShloMosaic.Lib.ValueIdx

noncomputable section

open scoped BigOperators

namespace Cert.IdxSum

open Idealize.ShloMosaic Idealize.ShloMosaic.ValueIdx

/-- The indices of an array of `n` entries are the numbers below `n`. -/
def idxEquiv1 {n : Nat} : (⟨1, ![n]⟩ : Shape).Idx ≃ Fin n where
  toFun i := i 0
  invFun a := ix1 a
  left_inv i := (eq_ix1 i).symm
  right_inv _ := rfl

/-- A sum over the indices of an array of `n` entries is the sum over the numbers below `n`. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The indices of an `n × 1 × 1` array are the numbers below `n`: the two unit coordinates are 0. -/
def idxEquiv3Unit {n : Nat} : (⟨3, ![n, 1, 1]⟩ : Shape).Idx ≃ Fin n where
  toFun i := i 0
  invFun a := ix3 a (0 : Fin 1) (0 : Fin 1)
  left_inv i := by
    funext d
    match d with
    | ⟨0, _⟩ => rfl
    | ⟨1, _⟩ => exact Fin.ext (by have h : (i 1).val < 1 := (i 1).isLt; show 0 = (i 1).val; omega)
    | ⟨2, _⟩ => exact Fin.ext (by have h : (i 2).val < 1 := (i 2).isLt; show 0 = (i 2).val; omega)
  right_inv _ := rfl

/-- A sum over the indices of an `n × 1 × 1` array is the sum over the numbers below `n`. -/
theorem sum_idx3_unit {M : Type*} [AddCommMonoid M] {n : Nat} (f : (⟨3, ![n, 1, 1]⟩ : Shape).Idx → M) :
    ∑ i, f i = ∑ a : Fin n, f (ix3 a (0 : Fin 1) (0 : Fin 1)) := by
  rw [← Equiv.sum_comp (idxEquiv3Unit (n := n)).symm f]
  rfl

end Cert.IdxSum

end
-- ==== Proof.KernelTail.lean ====
/-
  The host's lines after the kernel, as one function of the kernel's 16 × 5000 result and the edge mask. The mask is
  converted to floats (the weights); the result is multiplied by the weights laid along the sixteen classes and
  added over every class and edge from the zero word; the weights are added from the zero word and the sum taken
  against the word for 1; the first is divided by the second. When the kernel's result holds the divergence terms,
  that is `Cert.EdgeKl.total`.
-/
import proofs.«107464_j57612691309114_2_alg».proof.Proof.Gen.KernelIdeal
import proofs.«107464_j57612691309114_2_alg».proof.Proof.EdgeKl
import proofs.«107464_j57612691309114_2_alg».proof.Proof.LibIdxSum
import Idealize.ShloMosaic.Lib.Pipeline.Value
import Idealize.ShloMosaic.Lib.ValueIdx
import Idealize.ShloMosaic.PureOps.Ideal.Laws

noncomputable section

open scoped BigOperators

namespace Cert.KernelMath

open Idealize.ShloMosaic Idealize.ShloMosaic.ValueIdx Cert.EdgeKl Cert.KernelIdeal

/-- The weights laid along the sixteen classes: as one row, then down the rows. -/
def weightRows (a3 : IVec S5000 1) : FVec Ideal S16x5000 .f32 :=
  broadcastInDim S16x5000 ![0, 1] Gen.bcast_S1x5000_S16x5000_0_1
    (broadcastInDim S1x5000 ![1] Gen.bcast_S5000_S1x5000_1 (uitofp (F := Ideal) .f32 a3))

/-- The host's lines after the kernel. -/
def tailVal (o : FVec Ideal S16x5000 .f32) (a3 : IVec S5000 1) : FVec Ideal S_ .f32 :=
  Host.divf (F := Ideal)
    (Host.reduceAdd (F := Ideal)
      (mulf o (broadcastInDim S16x5000 ![0, 1] Gen.bcast_S1x5000_S16x5000_0_1
        (broadcastInDim S1x5000 ![1] Gen.bcast_S5000_S1x5000_1 (uitofp (F := Ideal) .f32 a3))))
      (constant (F := Ideal) S_ .f32 0x00000000#32) Gen.reducesTo_S16x5000_S_d0_1 Gen.h_S_)
    (maximumf
      (Host.reduceAdd (F := Ideal) (uitofp (F := Ideal) .f32 a3) (constant (F := Ideal) S_ .f32 0x00000000#32)
        Gen.reducesTo_S5000_S_d0 Gen.h_S_)
      (constant (F := Ideal) S_ .f32 0x3F800000#32))

/-- A host sum over every axis, from the zero word, is the sum over every index. -/
theorem hostSum_total {s : Shape} {axes : List (Fin s.rank)} (x : FVec Ideal s .f32) (h' : s.ReducesTo axes S_)
    (i : S_.Idx) :
    Host.reduceAdd (F := Ideal) x (constant (F := Ideal) S_ .f32 0x00000000#32) h' Gen.h_S_ i = ∑ j : s.Idx, x j := by
  simp only [Host.reduceAdd, Ideal.hostReduceAdd_def]
  refine (Ideal.hostReduceAdd_total h' (fun b => b.elim0) x _ i).trans ?_
  show Ideal.ofBits .f32 0x00000000#32 + _ = _
  rw [Ideal.ofBits_zero_f32, zero_add]

/-- The weights laid along the classes, at a class and an edge. -/
theorem weightRows_apply (a3 : IVec S5000 1) (c : Fin 16) (e : Fin 5000) :
    weightRows a3 (ix2 c e) = (uitofp (F := Ideal) .f32 a3 : FVec Ideal S5000 .f32) (ix1 e) := by
  unfold weightRows
  refine (broadcastInDim_apply _ Gen.bcast_S1x5000_S16x5000_0_1 _ (ix2 c e) (ix2 (0 : Fin 1) e) (fun a => match a with
    | ⟨0, _⟩ => by show 0 = if (1 : Nat) = 1 then 0 else c.val; rw [if_pos rfl]
    | ⟨1, _⟩ => by show e.val = if (5000 : Nat) = 1 then 0 else e.val; rw [if_neg (by decide)])).trans ?_
  exact broadcastInDim_apply _ Gen.bcast_S5000_S1x5000_1 _ (ix2 (0 : Fin 1) e) (ix1 e) (fun a => match a with
    | ⟨0, _⟩ => by show e.val = if (5000 : Nat) = 1 then 0 else e.val; rw [if_neg (by decide)])

/-- **The host's lines after the kernel, at the result's one index.** -/
theorem tailVal_apply (o : FVec Ideal S16x5000 .f32) (a3 : IVec S5000 1) (i : S_.Idx) :
    tailVal o a3 i
      = Ideal.div (∑ c : Fin 16, ∑ e : Fin 5000, o (ix2 c e) * (uitofp (F := Ideal) .f32 a3 : FVec Ideal S5000 .f32) (ix1 e))
          (nSel (uitofp (F := Ideal) .f32 a3 : FVec Ideal S5000 .f32)) := by
  have hnum := hostSum_total (mulf o (weightRows a3)) Gen.reducesTo_S16x5000_S_d0_1 i
  have hden := hostSum_total (uitofp (F := Ideal) .f32 a3 : FVec Ideal S5000 .f32) Gen.reducesTo_S5000_S_d0 i
  show FloatOps.hostDivf (Host.reduceAdd (F := Ideal) (mulf o (weightRows a3)) (constant (F := Ideal) S_ .f32 0x00000000#32)
      Gen.reducesTo_S16x5000_S_d0_1 Gen.h_S_ i)
    (FloatOps.maximumf (Host.reduceAdd (F := Ideal) (uitofp (F := Ideal) .f32 a3 : FVec Ideal S5000 .f32)
      (constant (F := Ideal) S_ .f32 0x00000000#32) Gen.reducesTo_S5000_S_d0 Gen.h_S_ i)
      (FloatOps.ofBits (F := Ideal) .f32 0x3F800000#32)) = _
  rw [hnum, hden, Ideal.hostDivf_def, Ideal.maximumf_def, Ideal.ofBits_def, sum_idx2, Cert.IdxSum.sum_idx1]
  unfold nSel
  refine congrArg (Ideal.div · _) (Finset.sum_congr rfl fun c _ => Finset.sum_congr rfl fun e _ => ?_)
  show o (ix2 c e) * weightRows a3 (ix2 c e) = _
  rw [weightRows_apply]

/-- When the kernel's result holds the divergence terms, the host's lines give `total`. -/
theorem tailVal_total (s t : SP.Idx → EReal) (h : SH.Idx → EReal) (o : FVec Ideal S16x5000 .f32) (a3 : IVec S5000 1)
    (ho : ∀ (c : Fin 16) (e : Fin 5000), o (ix2 c e) = kl s t h e c) (i : S_.Idx) :
    tailVal o a3 i = total s t h (uitofp (F := Ideal) .f32 a3 : FVec Ideal S5000 .f32) := by
  rw [tailVal_apply, Finset.sum_comm]
  unfold total
  refine congrArg (Ideal.div · _) (Finset.sum_congr rfl fun e _ => Finset.sum_congr rfl fun c _ => ?_)
  rw [ho]

end Cert.KernelMath

end
-- ==== Proof.TotalI.lean ====
/-
  The kernel program's result, on the extended reals.

  After the call the result array holds the divergence terms; the host's lines after it weight them by the mask, add
  them over the sixteen classes and the 5000 edges and divide by the number of selected edges (at least one): the
  masked mean `total` of the specification.
-/
import proofs.«107464_j57612691309114_2_alg».proof.Proof.OutsI
import proofs.«107464_j57612691309114_2_alg».proof.Proof.KernelTail
import Idealize.ShloMosaic.Lib.Pipeline.FrameBody
import Idealize.ShloMosaic.Lib.Pipeline.FrameSuffix
import Idealize.ShloMosaic.Lib.Pipeline.Value
import Idealize.ShloMosaic.Lib.StableHlo.Run
import Idealize.ShloMosaic.Lib.ValueIdx
import Idealize.ShloMosaic.PureOps.Ideal.Laws
import Idealize.ShloMosaic.Lib.Tactic

set_option maxRecDepth 16384

noncomputable section

namespace Cert.KernelIdeal.Total

open Cert.KernelIdeal Cert.KernelIdeal.Gen Cert.KernelIdeal.Body
open Idealize.ShloMosaic Idealize.ShloMosaic.TcCoe Idealize.ShloMosaic.Tactic Idealize.ShloMosaic.ValueIdx Cert.EdgeKl
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

open Cert.KernelIdeal.Result Cert.KernelIdeal.Track Cert.KernelIdeal.Outs

/-- The scalar the host's lines after the call leave. -/
theorem tail_total (c : Dev nD) :
    Pipeline.afterTail₀ cfgs (dats m (GI m) (outI m)) 0 (V0 m) [hostOps1] c main_v8
      = fun _ => total (sA m c) (tA m c) (hA m c) (uitofp (F := Ideal) .f32 (m ((c.tc : Thread nD τ).loc main_arg3))) := by
  unfold Pipeline.afterTail₀
  show StableHlo.after hostOps1 _ (Proc.devRef .tc main_v8) = _
  after_results
  have e3 : Pipeline.withArrays (cfgs 0).spec c (V0 m c) (fun w => (dats m (GI m) (outI m) 0 c).arrAt w (cfgs 0).N) (Proc.devRef .tc main_v0) = klArr m c :=
    (Pipeline.withArrays_arr spec0 launch0.win.arr_inj c _ _ 3).trans (final3 m c)
  have ea : Pipeline.withArrays (cfgs 0).spec c (V0 m c) (fun w => (dats m (GI m) (outI m) 0 c).arrAt w (cfgs 0).N) (Proc.devRef .tc main_arg3)
      = m ((c.tc : Thread nD τ).loc main_arg3) :=
    (Pipeline.withArrays_of_ne _ c (V0 m c) _ main_arg3 (by exact (by decide : ∀ w, Pipeline.arrRef spec0 w ≠ main_arg3))).trans (V_main_arg3 m c)
  rw [e3, ea]
  funext i
  exact Cert.KernelMath.tailVal_total (sA m c) (tA m c) (hA m c) (klArr m c) (m ((c.tc : Thread nD τ).loc main_arg3)) (fun _ _ => rfl) i

/-- Every weakly fair execution of the kernel program terminates without a fault, with the masked mean in its result and
    its arguments unchanged. -/
theorem run_total : θ_run defs (onTc (τ := τ) (main (F := Ideal))) ⟨m, fun _ => 0, ρ⟩ (fun r => ∀ c : Dev nD,
      r.2.mem ((c.tc : Thread nD τ).loc main_v8)
          = (fun _ => total (sA m c) (tA m c) (hA m c) (uitofp (F := Ideal) .f32 (m ((c.tc : Thread nD τ).loc main_arg3))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨((h c).2 main_v8 (Pipeline.mem_restRefs_of main_v8 (by decide) (by decide))).trans (tail_total m c),
        ((h c).1 0).trans (((dats m (GI m) (outI m) 0 c).arrAt_in 0 rfl _).trans ((A_eq m (GI m) (outI m) c 0).trans (V_main_arg0 m c))),
        ((h c).1 1).trans (((dats m (GI m) (outI m) 0 c).arrAt_in 1 rfl _).trans ((A_eq m (GI m) (outI m) c 1).trans (V_main_arg1 m c))),
        ((h c).1 2).trans (((dats m (GI m) (outI m) 0 c).arrAt_in 2 rfl _).trans ((A_eq m (GI m) (outI m) c 2).trans (V_main_arg2 m c))),
        ((h c).2 main_arg3 (Pipeline.mem_restRefs_of main_arg3 (by decide) (by decide))).trans (W_main_arg3 m (dats m (GI m) (outI m)) c)⟩)
    (run_main m ρ (GI m) (outI m) (tracksI m) (outsI m))

end Cert.KernelIdeal.Total

end
-- ==== Proof.RefSoft.lean ====
/-
  The reference's row softmax, read at a row and a class: the operations that take a score array to its weights
  compute `Cert.EdgeKl.soft`. The row's maximum is folded from −∞ over the sixteen classes and taken once more
  against −∞, laid back along the row and subtracted; the exponentials are summed from the zero word, the sum laid
  back along the row, and each exponential divided by it. The second score array goes through the same operations.
-/
import proofs.«107464_j57612691309114_2_alg».proof.Proof.Gen.ReferenceIdeal.Read
import proofs.«107464_j57612691309114_2_alg».proof.Proof.EdgeKl
import proofs.«107464_j57612691309114_2_alg».proof.Proof.LibIdxSum

noncomputable section

open scoped BigOperators

namespace Cert.RefSoft

open Cert.ReferenceIdeal Cert.ReferenceIdeal.Gen Cert.ReferenceIdeal.Read Idealize.ShloMosaic Idealize.ShloMosaic.ValueIdx Cert.EdgeKl

/-- The scores' array type as the reference program spells it. -/
abbrev Scores : Type := (⟨S50000x16, .f32⟩ : BufTy).Contents (Elt Ideal)

/-- The row's maximum folded from −∞: the reduction over the class axis at row `v`. -/
theorem v0_row (x : Scores) (v : Fin 50000) :
    val_main_v0 (F := Ideal) x (ix1 v) = (Finset.univ : Finset (Fin 16)).fold max negInf (fun j => x (ix2 v j)) := by
  unfold val_main_v0
  have h : S50000x16.Reduces [1] S50000 := by decide
  refine (Host.reduce_eq_fold_single (α := Ideal .f32) (s := S50000x16) (t := S50000) (a := 1) FloatOps.maximumf x
    (val_main_cst (F := Ideal)) Facts₀.reducesTo_S50000x16_S50000_d1 h Facts₀.h_S_ (ix1 v)).trans ?_
  have e : (fun k : Fin 16 => x (h.lift (ix1 v) k)) = fun j : Fin 16 => x (ix2 v j) :=
    funext fun k => congrArg x (funext fun c => Fin.ext (by match c with | ⟨0, _⟩ => rfl | ⟨1, _⟩ => rfl))
  exact congrArg (fun g : Fin 16 → EReal => (Finset.univ : Finset (Fin 16)).fold max negInf g) e

/-- The maximum laid back along the row is `rowMax`. -/
theorem v4_row (x : Scores) (v : Fin 50000) (c : Fin 16) :
    val_main_v4 (F := Ideal) x (ix2 v c) = rowMax x v := by
  have e : idx_main_v3 (idx_main_v4 (ix2 v c)) = ix1 v :=
    funext fun a => Fin.ext (by match a with | ⟨0, _⟩ => rfl)
  rw [val_main_v4_apply, val_main_v3_apply, val_main_v2_apply, val_main_v1_apply, val_main_cst_0_apply, e, v0_row]
  rfl

/-- The exponential of the score less the row's maximum. -/
theorem v6_row (x : Scores) (v : Fin 50000) (c : Fin 16) :
    val_main_v6 (F := Ideal) x (ix2 v c) = Ideal.exp (x (ix2 v c) - rowMax x v) := by
  rw [val_main_v6_apply, val_main_v5_apply, v4_row]
  rfl

/-- The sum of the row's exponentials, from the zero word. -/
theorem v7_row (x : Scores) (v : Fin 50000) :
    val_main_v7 (F := Ideal) x (ix1 v) = ∑ j : Fin 16, Ideal.exp (x (ix2 v j) - rowMax x v) := by
  rw [val_main_v7_apply, val_main_cst_1_apply, Ideal.ofBits_def, Ideal.ofBits_zero_f32, zero_add]
  refine Finset.sum_congr rfl fun k _ => ?_
  have e : idx_main_v7 (ix1 v) k = ix2 v k :=
    funext fun a => Fin.ext (by match a with | ⟨0, _⟩ => rfl | ⟨1, _⟩ => rfl)
  rw [e, v6_row]

/-- The first score array's weights are its softmax. -/
theorem v10_soft (x : Scores) (v : Fin 50000) (c : Fin 16) :
    val_main_v10 (F := Ideal) x (ix2 v c) = soft x v c := by
  have e : idx_main_v8 (idx_main_v9 (ix2 v c)) = ix1 v :=
    funext fun a => Fin.ext (by match a with | ⟨0, _⟩ => rfl)
  rw [val_main_v10_apply, val_main_v9_apply, val_main_v8_apply, e, v7_row, v6_row]
  rfl

/-- The second score array goes through the same operations. -/
theorem v21_eq_v10 (x : Scores) : val_main_v21 (F := Ideal) x = val_main_v10 (F := Ideal) x := rfl

/-- The second score array's weights are its softmax. -/
theorem v21_soft (x : Scores) (v : Fin 50000) (c : Fin 16) :
    val_main_v21 (F := Ideal) x (ix2 v c) = soft x v c := by
  rw [v21_eq_v10, v10_soft]

end Cert.RefSoft

end
-- ==== Proof.RefMeans.lean ====
/-
  The reference's edge means, read at an edge and a class. The column sums of the incidence matrix are the degrees;
  the contraction of the incidence matrix with a score array's softmax weights over the vertices is `edgeSum`; that
  sum divided by the degree (laid along the classes), divided by the temperature word, plus ε, under the logarithm, is
  `logMean`; and the exponential of the second array's `logMean` times the difference of the two is the divergence
  term `kl`. The second score array goes through the same operations as the first.
-/
import proofs.«107464_j57612691309114_2_alg».proof.Proof.Gen.ReferenceIdeal.Read
import proofs.«107464_j57612691309114_2_alg».proof.Proof.EdgeKl
import proofs.«107464_j57612691309114_2_alg».proof.Proof.LibIdxSum
import proofs.«107464_j57612691309114_2_alg».proof.Proof.RefSoft

noncomputable section

open scoped BigOperators

namespace Cert.RefMeans

open Cert.ReferenceIdeal Cert.ReferenceIdeal.Gen Cert.ReferenceIdeal.Read Idealize.ShloMosaic Idealize.ShloMosaic.ValueIdx Cert.EdgeKl

open Cert.RefSoft

/-- The incidence matrix's array type as the reference program spells it. -/
abbrev Incid : Type := (⟨S50000x5000, .f32⟩ : BufTy).Contents (Elt Ideal)

/-- The column sum of the incidence matrix at edge `e`, from the zero word, is the edge's degree. -/
theorem v22_deg (h : Incid) (e : Fin 5000) : val_main_v22 (F := Ideal) h (ix1 e) = deg h e := by
  rw [val_main_v22_apply, val_main_cst_5_apply, Ideal.ofBits_def, Ideal.ofBits_zero_f32, zero_add]
  refine Finset.sum_congr rfl fun k _ => ?_
  exact congrArg h (funext fun a => Fin.ext (by match a with | ⟨0, _⟩ => rfl | ⟨1, _⟩ => rfl))

/-- The degree laid along the classes. -/
theorem v25_deg (h : Incid) (e : Fin 5000) (c : Fin 16) : val_main_v25 (F := Ideal) h (ix2 e c) = deg h e := by
  have e' : idx_main_v24 (idx_main_v25 (ix2 e c)) = ix1 e :=
    funext fun a => Fin.ext (by match a with | ⟨0, _⟩ => rfl)
  rw [val_main_v25_apply, val_main_v24_apply, e', v22_deg]

/-- The contraction over the vertices of the incidence matrix with the softmax weights. -/
theorem v23_edgeSum (x : Scores) (h : Incid) (e : Fin 5000) (c : Fin 16) :
    val_main_v23 (F := Ideal) x h (ix2 e c) = edgeSum x h e c := by
  rw [val_main_v23_apply]
  refine Finset.sum_congr rfl fun k _ => ?_
  have el : lidx_main_v23 (ix2 e c) k = ix2 k e :=
    funext fun a => Fin.ext (by match a with | ⟨0, _⟩ => rfl | ⟨1, _⟩ => rfl)
  have er : ridx_main_v23 (ix2 e c) k = ix2 k c :=
    funext fun a => Fin.ext (by match a with | ⟨0, _⟩ => rfl | ⟨1, _⟩ => rfl)
  rw [el, er, v10_soft]

/-- The logarithm of the first array's edge mean over the temperature, plus ε. -/
theorem v31_logMean (x : Scores) (h : Incid) (e : Fin 5000) (c : Fin 16) :
    val_main_v31 (F := Ideal) x h (ix2 e c) = logMean x h e c := by
  rw [val_main_v31_apply, val_main_v30_apply, val_main_v28_apply, val_main_v26_apply, v23_edgeSum, v25_deg,
    val_main_v27_apply, val_main_cst_6_apply, val_main_v29_apply, val_main_cst_7_apply]
  rfl

/-- The second score array goes through the same operations. -/
theorem v40_eq_v31 (x : Scores) (h : Incid) : val_main_v40 (F := Ideal) x h = val_main_v31 (F := Ideal) x h := rfl

/-- The logarithm of the second array's edge mean over the temperature, plus ε. -/
theorem v40_logMean (x : Scores) (h : Incid) (e : Fin 5000) (c : Fin 16) :
    val_main_v40 (F := Ideal) x h (ix2 e c) = logMean x h e c := by
  rw [v40_eq_v31, v31_logMean]

/-- The divergence term of an edge and a class. -/
theorem v43_kl (s t : Scores) (h : Incid) (e : Fin 5000) (c : Fin 16) :
    val_main_v43 (F := Ideal) s t h (ix2 e c) = kl s t h e c := by
  rw [val_main_v43_apply, val_main_v41_apply, val_main_v42_apply, v40_logMean, v31_logMean]
  rfl

end Cert.RefMeans

end
-- ==== Proof.RefTotal.lean ====
/-
  The reference's result is `Cert.EdgeKl.total` of its four arguments, the mask read as the weight vector its
  conversion to floats gives. The divergence terms are multiplied by the edge's weight laid along the classes and
  added over every edge and class from the zero word; the weights are added from the zero word and the sum taken
  against the word for 1; the first is divided by the second.
-/
import proofs.«107464_j57612691309114_2_alg».proof.Proof.Gen.ReferenceIdeal.Read
import proofs.«107464_j57612691309114_2_alg».proof.Proof.EdgeKl
import proofs.«107464_j57612691309114_2_alg».proof.Proof.LibIdxSum
import proofs.«107464_j57612691309114_2_alg».proof.Proof.RefMeans

noncomputable section

open scoped BigOperators

namespace Cert.RefTotal

open Cert.ReferenceIdeal Cert.ReferenceIdeal.Gen Cert.ReferenceIdeal.Read Idealize.ShloMosaic Idealize.ShloMosaic.ValueIdx Cert.EdgeKl

open Cert.RefSoft Cert.RefMeans

/-- The mask's array type as the reference program spells it. -/
abbrev Mask : Type := (⟨S5000, .i1⟩ : BufTy).Contents (Elt Ideal)

/-- The mask's weight vector: the mask converted to floats. -/
abbrev weights (m : Mask) : (⟨S5000, .f32⟩ : BufTy).Contents (Elt Ideal) := uitofp (F := Ideal) .f32 m

/-- The edge's weight laid along the classes. -/
theorem v48_weight (m : Mask) (e : Fin 5000) (c : Fin 16) :
    val_main_v48 (F := Ideal) m (ix2 e c) = weights m (ix1 e) := by
  have e' : idx_main_v47 (idx_main_v48 (ix2 e c)) = ix1 e :=
    funext fun a => Fin.ext (by match a with | ⟨0, _⟩ => rfl)
  rw [val_main_v48_apply, val_main_v47_apply, e']
  rfl

/-- The weighted divergence terms added over every edge and class, from the zero word. -/
theorem v50_sum (s t : Scores) (h : Incid) (m : Mask) (i : S_.Idx) :
    val_main_v50 (F := Ideal) s t h m i = ∑ e : Fin 5000, ∑ c : Fin 16, kl s t h e c * weights m (ix1 e) := by
  rw [val_main_v50_apply, val_main_cst_12_apply, Ideal.ofBits_def, Ideal.ofBits_zero_f32, zero_add, sum_idx2]
  refine Finset.sum_congr rfl fun e _ => Finset.sum_congr rfl fun c _ => ?_
  rw [val_main_v49_apply, v43_kl, v48_weight]
  rfl

/-- The number of selected edges, at least one. -/
theorem v46_nSel (m : Mask) (i : S_.Idx) : val_main_v46 (F := Ideal) m i = nSel (weights m) := by
  rw [val_main_v46_apply, val_main_v45_apply, val_main_cst_10_apply, val_main_cst_11_apply, Ideal.ofBits_def,
    Ideal.ofBits_zero_f32, zero_add, Cert.IdxSum.sum_idx1]
  rfl

/-- **The reference computes `total`.** -/
theorem ref_total (x0 x1 : (⟨S50000x16, .f32⟩ : BufTy).Contents (Elt Ideal))
    (x2 : (⟨S50000x5000, .f32⟩ : BufTy).Contents (Elt Ideal)) (x3 : (⟨S5000, .i1⟩ : BufTy).Contents (Elt Ideal)) (i : S_.Idx) :
    val_main_v51 (F := Ideal) x0 x1 x2 x3 i
      = Cert.EdgeKl.total x0 x1 x2 (uitofp (F := Ideal) .f32 x3) := by
  rw [val_main_v51_apply, v50_sum, v46_nSel]
  rfl

end Cert.RefTotal

end
-- ==== Proof.lean ====
/-
  The certificate of a hypergraph divergence kernel against its jnp reference.

  Both programs take vertex scores s, t (50000 × 16), an incidence matrix h (50000 × 5000) and an edge mask, and
  return one number: the row-softmaxed scores are averaged over the vertices of each edge (an incidence-weighted sum
  over the vertices divided by the edge's degree), the means are divided by the temperature 1/2, ε is added, and the
  divergence exp(log b) · (log b − log a) of the two logarithms is taken per edge and class; the terms of the masked edges
  are added and divided by their number (at least one).

  The kernel takes the sum over the 50000 vertices ten row blocks at a time into an accumulator of 33 rows (sixteen
  classes of the first scores, sixteen of the second, and a row of ones whose sum is the degree) and finishes at the
  tenth block; the reference takes each sum whole. On the extended reals a sum taken in ten blocks is the sum, a product
  does not depend on the order of its factors, and a double sum does not depend on the order of its indices: these are
  the only laws joining the two sides (`Cert.EdgeKl.total` is the number both compute), and none of them needs the
  inputs to be finite.

  The three frame claims: the kernel program runs to its end at any float instance with its arguments unchanged
  (`Body.frame`, with nothing said of the accumulator's contents), and the reference is a line of host operations.
-/
import proofs.«107464_j57612691309114_2_alg».proof.Defs
import proofs.«107464_j57612691309114_2_alg».proof.Proof.Gen.Kernel
import proofs.«107464_j57612691309114_2_alg».proof.Proof.Gen.KernelIdeal
import proofs.«107464_j57612691309114_2_alg».proof.Proof.Gen.ReferenceIdeal
import proofs.«107464_j57612691309114_2_alg».proof.Proof.Gen.Pre_finite_inputs
import proofs.«107464_j57612691309114_2_alg».proof.Proof.Gen.ReferenceIdeal.Run
import proofs.«107464_j57612691309114_2_alg».proof.Proof.Gen.ReferenceIdeal.Read
import proofs.«107464_j57612691309114_2_alg».proof.Proof.FrameK
import proofs.«107464_j57612691309114_2_alg».proof.Proof.FrameI
import proofs.«107464_j57612691309114_2_alg».proof.Proof.TotalI
import proofs.«107464_j57612691309114_2_alg».proof.Proof.RefTotal
import Idealize.ShloMosaic.Adequacy
import Idealize.ShloMosaic.Init

noncomputable section

namespace Cert.Proof

open Idealize.ShloMosaic Idealize.ShloMosaic.TcCoe Idealize.SL.Sem

/-- The kernel program as printed runs to its end, its arguments unchanged. -/
theorem frame_k : Cert.frame_Kernel := fun m ρ _ =>
  Cert.Kernel.Body.frame m ρ (fun _ _ _ => True) (fun _ _ _ _ _ => trivial)

/-- So does its idealization. -/
theorem frame_ki : Cert.frame_KernelIdeal := fun m ρ _ =>
  Cert.KernelIdeal.Body.frame m ρ (fun _ _ _ => True) (fun _ _ _ _ _ => trivial)

/-- The reference is a line of host operations. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree both programs end with the masked mean of the divergence terms in their result. -/
theorem algebraic : Cert.algebraic_KernelIdeal_ReferenceIdeal := by
  intro m ρ m' ρ' _ hagree
  refine ⟨_, Cert.KernelIdeal.Total.run_total m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, (hagree c).1, (hagree c).2.1, (hagree c).2.2.1, (hagree c).2.2.2]
  funext i
  exact Cert.RefTotal.ref_total _ _ _ _ i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
